-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x128 : Shape := ⟨2, ![4096, 128]⟩
abbrev S4096x6 : Shape := ⟨2, ![4096, 6]⟩
abbrev S4096 : Shape := ⟨1, ![4096]⟩
abbrev S100000x128 : Shape := ⟨2, ![100000, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x6 : S_.BroadcastsInDim S4096x6 (![] : Fin 0 → Fin S4096x6.rank)
  reducesTo_S4096x6_S_d0_1 : S4096x6.ReducesTo [0, 1] S_
  bcast_S_S100000x128 : S_.BroadcastsInDim S100000x128 (![] : Fin 0 → Fin S100000x128.rank)
  reducesTo_S100000x128_S_d0_1 : S100000x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .sle main_arg2 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x128 .f32) (main_arg1 : FVec F S4096x6 .f32) (main_arg2 : IVec S4096 32) (main_arg3 : FVec F S100000x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x6 .f32 := Host.absf main_arg1
  let main_cst_0 : FVec F S_ .f32 := constant S_ .f32 0x7F800000#32
  let main_v5 : FVec F S4096x6 .f32 := broadcastInDim S4096x6 ![] bcast_S_S4096x6 main_cst_0
  let main_v6 : IVec S4096x6 1 := cmpf .olt main_v4 main_v5
  let main_c_1 : IVec S_ 1 := constantI S_ 1 1#1
  let main_v7 : IVec S_ 1 := (fun x v => Host.reduce IntOp.andi x v reducesTo_S4096x6_S_d0_1 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 32 := constantI S_ 32 99999#32
  fn_part1 (F := F) main_arg2 main_v13 main_v15 main_c_5
-- ==== Kernel.lean ====
abbrev S4096x128 : Shape := ⟨2, ![4096, 128]⟩
abbrev S4096x6 : Shape := ⟨2, ![4096, 6]⟩
abbrev S4096 : Shape := ⟨1, ![4096]⟩
abbrev S100000x128 : Shape := ⟨2, ![100000, 128]⟩
abbrev S256 : Shape := ⟨1, ![256]⟩
abbrev S256x128 : Shape := ⟨2, ![256, 128]⟩
abbrev S_ : Shape := ⟨0, ![]⟩
abbrev S128x128 : Shape := ⟨2, ![128, 128]⟩
abbrev S128 : Shape := ⟨1, ![128]⟩

abbrev nBuf : Table → Nat
  | .hbm => 5
  | .local .scVector .vmem => 2
  | _ => 0

abbrev bufTy : (tb : Table) → Fin (nBuf tb) → BufTy
  | .hbm, ⟨0, _⟩ => ⟨S4096x128, .f32⟩
  | .hbm, ⟨1, _⟩ => ⟨S4096x6, .f32⟩
  | .hbm, ⟨2, _⟩ => ⟨S4096, .i32⟩
  | .hbm, ⟨3, _⟩ => ⟨S100000x128, .f32⟩
  | .hbm, ⟨4, _⟩ => ⟨S4096x128, .f32⟩
  | .local .scVector .vmem, ⟨0, _⟩ => ⟨S256, .i32⟩
  | .local .scVector .vmem, ⟨1, _⟩ => ⟨S256x128, .f32⟩
  | _, _ => ⟨S4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_18_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S256x128_S128x128_0_0 : ∀ a, (![0, 0] : Fin 2 → Nat) a + S128x128.size a ≤ S256x128.size a
  inb_S256_S128_0 : ∀ a, (![0] : Fin 1 → Nat) a + S128.size a ≤ S256.size a
  inb_S100000x128_S100000x128_0_0 : ∀ a, (![0, 0] : Fin 2 → Nat) a + S100000x128.size a ≤ S100000x128.size a
  gathers_S100000x128_S128x128 : S100000x128.Gathers 0 S128x128
  inb_S256x128_S128x128_128_0 : ∀ a, (![128, 0] : Fin 2 → Nat) a + S128x128.size a ≤ S256x128.size a
  inb_S256_S128_128 : ∀ a, (![128] : Fin 1 → Nat) a + S128.size a ≤ S256.size a
  hcc0_scratch2 : 0 + S_.numel ≤ 4
  hcc0_scratch3 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S4096.size a
  k0_off2_inb : ∀ i : grid0.Coords, ∀ a, (k0_off2 i) a + S256x128.size a ≤ S4096x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S4096x128 : Shape := ⟨2, ![4096, 128]⟩
abbrev S4096x6 : Shape := ⟨2, ![4096, 6]⟩
abbrev S4096 : Shape := ⟨1, ![4096]⟩
abbrev S100000x128 : Shape := ⟨2, ![100000, 128]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x6, .f32⟩
  | .hbm, ⟨2, _⟩ => ⟨S4096, .i32⟩
  | .hbm, ⟨3, _⟩ => ⟨S100000x128, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x128, .f32⟩
  | .hbm, ⟨23, _⟩ => ⟨S4096x128, .i1⟩
  | .hbm, ⟨24, _⟩ => ⟨S_, .f32⟩
  | .hbm, ⟨25, _⟩ => ⟨S4096x128, .f32⟩
  | .hbm, ⟨26, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  gather_S100000x128_S4096x1_S4096x128_1_0_n_n_0_1_1128_wf : GatherDims.WF S100000x128 S4096x1 S4096x128 [1] [0] [] [0] [] 1 ![1, 128]

variable [Facts₀]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf

class Facts : Prop extends Facts₀ where

variable [Facts]
-- ==== Proof.LabelRange.lean ====
/-
  The label half of the input-domain predicate, read back.

  The predicate is a conjunction of five `all`-reductions; its last two say that every label word, read as a
  signed integer, is at least 0 and at most 99999.  From the predicate being true we extract exactly these two
  facts at every position.  Nothing here depends on the float instance: the label conjuncts compare integer words.
-/
import proofs.«208054_g70884140253208_cont_9to1_m_1136_23_alg».proof.Pre_input_domain
import Idealize.ShloMosaic.Lib.ReduceAll
import Idealize.ShloMosaic.Lib.ValueIdx

namespace Cert.LabelRange

open Idealize.ShloMosaic Cert.Pre_input_domain

/-- The rank-0 shape has exactly one index. -/
instance : Subsingleton S_.Idx := ⟨fun a b => funext fun d => d.elim0⟩

/-- If the input-domain predicate holds, every label lies in `[0, 99999]` as a signed integer. -/
theorem labels_in_range {F : FTy → Type} [FloatOps F] [Cert.Pre_input_domain.Facts]
    (a0 : FVec F Cert.Pre_input_domain.S4096x128 .f32) (a1 : FVec F Cert.Pre_input_domain.S4096x6 .f32)
    (a2 : IVec Cert.Pre_input_domain.S4096 32) (a3 : FVec F Cert.Pre_input_domain.S100000x128 .f32)
    (h : Cert.Pre_input_domain.fn (F := F) a0 a1 a2 a3 = fun _ => 1#1) :
    ∀ i, 0 ≤ (a2 i).toInt ∧ (a2 i).toInt ≤ 99999 := by
  intro i
  have h0 := congrFun h ValueIdx.ix0
  dsimp only [fn, fn_part1] at h0
  -- the outer conjunction: (float conjuncts) ∧ (label reduction)
  obtain ⟨-, hlab⟩ := IntOp.andi_eq_one.1 h0
  -- the label reduction is 1, so its operand is 1 at every position
  have hi := Host.reduce_andi_all _ _ _ _ _ hlab i
  -- the operand at `i` is (label ≥ 0) ∧ (label ≤ 99999)
  obtain ⟨hge, hle⟩ := IntOp.andi_eq_one.1 hi
  have hge' : (0#32).toInt ≤ (a2 i).toInt := IntOp.cmpi_sge.1 hge
  have hle' : (a2 i).toInt ≤ (99999#32).toInt := IntOp.cmpi_sle.1 hle
  exact ⟨by simpa using hge', by simpa using hle'⟩

end Cert.LabelRange
-- ==== Proof.LibEdgeRead.lean ====
/- The host gather and the host accumulating scatter of an EDGE LIST, read at one entry, at the ideal instance.

   A graph on `N` nodes is given by `E` edges, each naming a node by a signed integer word; node features are the rows
   of an `N × C` array (or the entries of a length-`N` vector). Two host operations move data along edges:

   * the ROW GATHER reads, for edge `e`, the row its index names — the index read signed and CLAMPED into
     `[0, N − 1]` (`clampRow`, `row`);
   * the ACCUMULATING SCATTER adds, into row `n`, the update rows of all edges whose index IS `n` — the index read
     signed and NOT clamped: a negative or too large index is dropped (`lands`).

   Both are stated for the dimension numbers a gather / scatter along axis 0 with one scalar index per edge carries
   (index vector axis 1 of an `E × 1` index array), generically in the three extents. The last section links the two:
   an index that lands on row `n` and is normalised the way a wrapped negative index is (add `N` when negative) still
   gathers row `n`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.EdgeRead

open Idealize.ShloMosaic Idealize.ShloMosaic.ValueIdx

/-! ## The node an edge's index names -/

/-- The row a gather's start index selects among `N` rows: its signed value, clamped into `[0, N − 1]`. -/
def clampRow (N : Nat) (hN : 0 < N) {w : Nat} (v : BitVec w) : Fin N := ⟨min v.toInt.toNat (N - 1), by omega⟩

/-- An index whose signed value is a row number selects that row: clamping does nothing in range. -/
theorem clampRow_of_toInt_eq {N : Nat} (hN : 0 < N) {w : Nat} (v : BitVec w) (n : Fin N) (h : v.toInt = (n.val : Int)) :
    clampRow N hN v = n := by
  refine Fin.ext ?_
  show min v.toInt.toNat (N - 1) = n.val
  have := n.isLt
  rw [h, Int.toNat_natCast]
  omega

/-- In range `[0, N)` the selected row's number is the index's signed value. -/
theorem clampRow_val_of_inRange {N : Nat} (hN : 0 < N) {w : Nat} (v : BitVec w) (h0 : 0 ≤ v.toInt) (hlt : v.toInt < (N : Int)) :
    ((clampRow N hN v).val : Int) = v.toInt := by
  show ((min v.toInt.toNat (N - 1) : Nat) : Int) = v.toInt
  omega

/-- The row edge `e`'s start index selects: entry `[e, 0]` of the `E × 1` index array, clamped. -/
def row {N E w : Nat} (hN : 0 < N) (idx : IVec ⟨2, ![E, 1]⟩ w) (e : Fin E) : Fin N := clampRow N hN (idx (ix2 e (0 : Fin 1)))

/-- Edge `e`'s scatter index IS row `n`: its signed value, unclamped, equals `n`. A negative index and one at or
    beyond `N` land nowhere. -/
def lands {N E w : Nat} (idx : IVec ⟨2, ![E, 1]⟩ w) (e : Fin E) (n : Fin N) : Prop := (idx (ix2 e (0 : Fin 1))).toInt = (n.val : Int)

instance {N E w : Nat} (idx : IVec ⟨2, ![E, 1]⟩ w) (e : Fin E) (n : Fin N) : Decidable (lands idx e n) := by
  unfold lands; infer_instance

/-- An index that lands on row `n` gathers row `n`. -/
theorem row_of_lands {N E w : Nat} (hN : 0 < N) (idx : IVec ⟨2, ![E, 1]⟩ w) (e : Fin E) (n : Fin N) (h : lands idx e n) :
    row hN idx e = n := clampRow_of_toInt_eq hN _ n h

/-! ## The row gather at an entry -/

section Gather
variable {α : Type}

/-- The dimension numbers of a gather of whole rows of an `N × C` operand at `E × 1` start indices: the result's
    axis 1 is the row's (offset axis), the operand's axis 0 is indexed and collapsed, one scalar index per edge. -/
abbrev rowGatherDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: column `k` of the row edge `e`'s index selects. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (row hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (show (1 : Fin 2) ∉ ([0] : List (Fin 2)) by decide)]
    rw [hst]
    simp only [Nat.add_zero, Nat.zero_add]
    unfold GatherDims.offCoord
    rw [dif_pos ((GatherDims.mem_sKept (rowGatherDims N E C wf) 1).mpr
      ⟨show (1 : Fin 2) ∉ ([0] : List (Fin 2)) by decide, List.not_mem_nil⟩)]
    rfl

/-- The same dimension numbers on a length-`N` vector: no offset axis, one entry per edge. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the entry edge `e`'s index selects. -/
theorem gather_vec_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e) = v (ix1 (row hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## The accumulating scatter at an entry -/

section Scatter

/-- The dimension numbers of a scatter of whole rows into an `N × C` operand at `E × 1` scatter indices: the updates'
    axis 1 is the row's (window axis), the operand's axis 0 is indexed (inserted), one scalar index per edge. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The same on a length-`N` vector: no window axis, one update entry per edge. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update entry `(e, k)` goes: on axis 0 the signed index of edge `e`, on axis 1 the column `k`. -/
theorem rows_start_window {N E C w : Nat} (wf : ScatterDims.WF ⟨2, ![N, C]⟩ ⟨2, ![E, 1]⟩ ⟨2, ![E, C]⟩ [1] [0] [0] 1)
    (idx : IVec ⟨2, ![E, 1]⟩ w) (e : Fin E) (k : Fin C) :
    (rowScatterDims N E C wf).start (ix2 e k) idx 0 + ((rowScatterDims N E C wf).window (ix2 e k) 0 : Int) = (idx (ix2 e (0 : Fin 1))).toInt
    ∧ (rowScatterDims N E C wf).start (ix2 e k) idx 1 + ((rowScatterDims N E C wf).window (ix2 e k) 1 : Int) = (k.val : Int) := by
  constructor
  · have hw : (rowScatterDims N E C wf).window (ix2 e k) 0 = 0 := by
      unfold ScatterDims.window
      have hnk : (0 : Fin 2) ∉ (rowScatterDims N E C wf).sKept :=
        (show (0 : Fin 2) ∉ (List.finRange 2).filter (· ∉ ([0] : List (Fin 2))) by decide)
      rw [dif_neg hnk]
    rw [hw]
    unfold ScatterDims.start
    rw [dif_pos (show (0 : Fin 2) ∈ (rowScatterDims N E C wf).scatterDimsToOperandDims from List.mem_singleton.mpr rfl)]
    have hsi : (rowScatterDims N E C wf).siIdx (ix2 e k) ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    simp
  · have hs : (rowScatterDims N E C wf).start (ix2 e k) idx 1 = 0 := by
      unfold ScatterDims.start
      rw [dif_neg (show (1 : Fin 2) ∉ ([0] : List (Fin 2)) by decide)]
    rw [hs]
    unfold ScatterDims.window
    have hk1 : (1 : Fin 2) ∈ (rowScatterDims N E C wf).sKept :=
      (show (1 : Fin 2) ∈ (List.finRange 2).filter (· ∉ ([0] : List (Fin 2))) by decide)
    rw [dif_pos hk1]
    simp
    rfl

/-- WHERE AN UPDATE ENTRY LANDS: entry `(e, k)` of the updates goes to `(n, k')` exactly when edge `e`'s index is
    row `n` and the columns agree. -/
theorem rows_resultIdx?_eq_some_iff {N E C w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k') ↔ (lands idx e n ∧ k = k') := by
  obtain ⟨h0, h1⟩ := rows_start_window wf idx e k
  unfold ScatterDims.resultIdx? lands
  constructor
  · intro h
    split at h
    · rename_i hin
      have hEq := Option.some.inj h
      have e0 := congrArg (fun f => (f 0).val) hEq
      have e1 := congrArg (fun f => (f 1).val) hEq
      simp only at e0 e1
      have b0 := hin 0
      have b1 := hin 1
      rw [h0] at b0
      change ((rowScatterDims N E C wf).start (ix2 e k) idx 0 + ((rowScatterDims N E C wf).window (ix2 e k) 0 : Int)).toNat = n.val at e0
      change ((rowScatterDims N E C wf).start (ix2 e k) idx 1 + ((rowScatterDims N E C wf).window (ix2 e k) 1 : Int)).toNat = k'.val at e1
      rw [h0] at e0
      rw [h1] at e1
      refine ⟨by omega, Fin.ext (by omega)⟩
    · exact absurd h (by simp)
  · rintro ⟨hl, rfl⟩
    have hin : ∀ a, 0 ≤ (rowScatterDims N E C wf).start (ix2 e k) idx a + ((rowScatterDims N E C wf).window (ix2 e k) a : Int)
        ∧ (rowScatterDims N E C wf).start (ix2 e k) idx a + ((rowScatterDims N E C wf).window (ix2 e k) a : Int) < ((⟨2, ![N, C]⟩ : Shape).size a : Int) := by
      have hin0 : 0 ≤ (rowScatterDims N E C wf).start (ix2 e k) idx 0 + ((rowScatterDims N E C wf).window (ix2 e k) 0 : Int)
          ∧ (rowScatterDims N E C wf).start (ix2 e k) idx 0 + ((rowScatterDims N E C wf).window (ix2 e k) 0 : Int) < (N : Int) := by
        rw [h0, hl]
        have := n.isLt
        exact ⟨by omega, by omega⟩
      have hin1 : 0 ≤ (rowScatterDims N E C wf).start (ix2 e k) idx 1 + ((rowScatterDims N E C wf).window (ix2 e k) 1 : Int)
          ∧ (rowScatterDims N E C wf).start (ix2 e k) idx 1 + ((rowScatterDims N E C wf).window (ix2 e k) 1 : Int) < (C : Int) := by
        rw [h1]
        have := k.isLt
        exact ⟨by omega, by omega⟩
      intro a
      match a with
      | ⟨0, _⟩ => exact hin0
      | ⟨1, _⟩ => exact hin1
    rw [dif_pos hin]
    congr 1
    funext a
    refine Fin.ext ?_
    match a with
    | ⟨0, _⟩ =>
      show ((rowScatterDims N E C wf).start (ix2 e k) idx 0 + ((rowScatterDims N E C wf).window (ix2 e k) 0 : Int)).toNat = n.val
      rw [h0, hl]; simp
    | ⟨1, _⟩ =>
      show ((rowScatterDims N E C wf).start (ix2 e k) idx 1 + ((rowScatterDims N E C wf).window (ix2 e k) 1 : Int)).toNat = k.val
      rw [h1]; simp

/-- THE ACCUMULATING ROW SCATTER READ AT `(n, k)`, at the ideal instance: the operand's entry plus the sum, over the
    EDGES whose index is row `n`, of column `k` of their update rows. -/
theorem scatterAdd_rows_apply {N E C w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (k : Fin C) :
    Host.scatterAdd (rowScatterDims N E C wf) x idx upd (ix2 n k)
      = x (ix2 n k) + ∑ e ∈ Finset.univ.filter (fun e : Fin E => lands idx e n), upd (ix2 e k) := by
  show Ideal.hostScatterAdd (rowScatterDims N E C wf) x idx upd (ix2 n k) = _
  unfold Ideal.hostScatterAdd
  congr 1
  symm
  refine Finset.sum_bij (fun e _ => ix2 e k) ?_ ?_ ?_ ?_
  · intro e he
    rw [Finset.mem_filter] at he ⊢
    exact ⟨Finset.mem_univ _, (rows_resultIdx?_eq_some_iff wf idx e k n k).mpr ⟨he.2, rfl⟩⟩
  · intro e₁ _ e₂ _ h
    have := congrArg (fun f => f 0) h
    exact this
  · intro j hj
    rw [Finset.mem_filter] at hj
    have hj' := hj.2
    rw [eq_ix2 j] at hj'
    obtain ⟨hl, hk⟩ := (rows_resultIdx?_eq_some_iff wf idx (j 0) (j 1) n k).mp hj'
    subst hk
    exact ⟨j 0, Finset.mem_filter.mpr ⟨Finset.mem_univ _, hl⟩, (eq_ix2 j).symm⟩
  · intro e _
    rfl

/-- Where update entry `e` of a vector scatter goes: the signed index of edge `e`. -/
theorem vec_start_window {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 + ((vecScatterDims N E wf).window (ix1 e) 0 : Int) = (idx (ix2 e (0 : Fin 1))).toInt := by
  have hw : (vecScatterDims N E wf).window (ix1 e) 0 = 0 := by
    unfold ScatterDims.window
    have hnk : (0 : Fin 1) ∉ (vecScatterDims N E wf).sKept :=
      (show (0 : Fin 1) ∉ (List.finRange 1).filter (· ∉ ([0] : List (Fin 1))) by decide)
    rw [dif_neg hnk]
  rw [hw]
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- WHERE A VECTOR UPDATE ENTRY LANDS: entry `e` of the updates goes to `n` exactly when edge `e`'s index is `n`. -/
theorem vec_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ lands idx e n := by
  have h0 := vec_start_window wf idx e
  unfold ScatterDims.resultIdx? lands
  constructor
  · intro h
    split at h
    · rename_i hin
      have hEq := Option.some.inj h
      have e0 := congrArg (fun f => (f 0).val) hEq
      simp only at e0
      have b0 := hin 0
      rw [h0] at b0
      change ((vecScatterDims N E wf).start (ix1 e) idx 0 + ((vecScatterDims N E wf).window (ix1 e) 0 : Int)).toNat = n.val at e0
      rw [h0] at e0
      omega
    · exact absurd h (by simp)
  · intro hl
    have hin0 : 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int) := by
      rw [h0, hl]
      have := n.isLt
      exact ⟨by omega, by omega⟩
    have hin : ∀ a, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro a
      match a with
      | ⟨0, _⟩ => exact hin0
    rw [dif_pos hin]
    congr 1
    funext a
    refine Fin.ext ?_
    match a with
    | ⟨0, _⟩ =>
      show ((vecScatterDims N E wf).start (ix1 e) idx 0 + ((vecScatterDims N E wf).window (ix1 e) 0 : Int)).toNat = n.val
      rw [h0, hl]; simp

/-- THE ACCUMULATING VECTOR SCATTER READ AT `n`, at the ideal instance: the operand's entry plus the sum, over the
    edges whose index is `n`, of their update entries. -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e ∈ Finset.univ.filter (fun e : Fin E => lands idx e n), upd (ix1 e) := by
  show Ideal.hostScatterAdd (vecScatterDims N E wf) x idx upd (ix1 n) = _
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx?_eq_some_iff wf idx e n).mpr he.2⟩
  · intro e₁ _ e₂ _ h
    have := congrArg (fun f => f 0) h
    exact this
  · intro j hj
    rw [Finset.mem_filter] at hj
    have hj' := hj.2
    rw [eq_ix1 j] at hj'
    have hl := (vec_resultIdx?_eq_some_iff wf idx (j 0) n).mp hj'
    exact ⟨j 0, Finset.mem_filter.mpr ⟨Finset.mem_univ _, hl⟩, (eq_ix1 j).symm⟩
  · intro e _
    rfl

end Scatter

/-! ## A normalised index that lands gathers the row it lands on -/

/-- The normalisation of a possibly negative index word against `N` rows, as an integer comparison with zero, an
    addition and a select: a negative word has the word of `N` added, any other is kept. -/
def normIdx (nN v : BitVec 32) : BitVec 32 := Scalar.select (IntOp.cmpi .slt v 0#32) (IntOp.addi v nN) v

/-- A non-negative index word is kept. -/
theorem normIdx_of_nonneg (nN v : BitVec 32) (h : 0 ≤ v.toInt) : normIdx nN v = v := by
  unfold normIdx Scalar.select IntOp.cmpi
  have hs : v.slt 0#32 = false := by
    rw [BitVec.slt_eq_decide]
    simp
    omega
  simp [hs]

/-- THE LINK: an index that lands on row `n` in the scatter, once normalised, selects row `n` in the gather. -/
theorem row_normIdx_of_lands {N E : Nat} (hN : 0 < N) (nN : BitVec 32) (idx : IVec ⟨2, ![E, 1]⟩ 32) (e : Fin E) (n : Fin N)
    (h : lands idx e n) : clampRow N hN (normIdx nN (idx (ix2 e (0 : Fin 1)))) = n := by
  have h' : (idx (ix2 e (0 : Fin 1))).toInt = (n.val : Int) := h
  rw [normIdx_of_nonneg nN _ (by rw [h']; omega)]
  exact clampRow_of_toInt_eq hN _ n h'

end Idealize.ShloMosaic.EdgeRead

end
-- ==== Proof.Spec.lean ====
/-
  The embedding lookup as ONE function of the table and the labels.

  Row `i` of the result is the row of the table that label `i` names: the label word read as a signed integer and
  clamped into the table's row range `[0, 99999]` (a label already in that range names its own row, which is the only
  case the certificate's precondition leaves).  Column `j` is kept.  The element type is arbitrary: the lookup moves
  entries and computes nothing.
-/
import proofs.«208054_g70884140253208_cont_9to1_m_1136_23_alg».proof.Proof.LibEdgeRead

noncomputable section

namespace Cert.Spec

open Idealize.ShloMosaic Idealize.ShloMosaic.ValueIdx

/-- The table row that a label word names. -/
def rowOf (w : BitVec 32) : Fin 100000 := EdgeRead.clampRow 100000 (by decide) w

/-- The looked-up array: entry `(i, j)` is entry `(rowOf (lab i), j)` of the table. -/
def lookup {α : Type} (tbl : (⟨2, ![100000, 128]⟩ : Shape).Idx → α) (lab : IVec ⟨1, ![4096]⟩ 32) :
    (⟨2, ![4096, 128]⟩ : Shape).Idx → α :=
  fun i => tbl (ix2 (n0 := 100000) (n1 := 128) (rowOf (lab (ix1 (n := 4096) (i 0)))) (i 1))

/-- The lookup at explicit coordinates. -/
theorem lookup_apply {α : Type} (tbl : (⟨2, ![100000, 128]⟩ : Shape).Idx → α) (lab : IVec ⟨1, ![4096]⟩ 32)
    (r : Fin 4096) (j : Fin 128) :
    lookup tbl lab (ix2 r j) = tbl (ix2 (rowOf (lab (ix1 r))) j) := rfl

/-- A label in range names the row whose number is its signed value. -/
theorem rowOf_val (w : BitVec 32) (h0 : 0 ≤ w.toInt) (h1 : w.toInt ≤ 99999) : ((rowOf w).val : Int) = w.toInt :=
  EdgeRead.clampRow_val_of_inRange (by decide) w h0 (by omega)

end Cert.Spec

end
-- ==== Proof.LibHostAll.lean ====
/-
  A host reduction by "and" of ones is one.

  A one-operand reduction of an array of one-bit words by "and" folds, from the initial value, over the operand
  entries that reduce into a result index.  If the initial value is 1 and every such entry is 1, the result there is 1.
  (The library has the converse: a result of 1 had 1 at every entry.)  Stated for any shapes and axes; nothing about
  any particular program.
-/
import Idealize.ShloMosaic.PureOps.Reduce

namespace Cert.HostAll

open Idealize.ShloMosaic

/-- A left fold by "and" from 1 over entries that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

variable {s t u : Shape} {axes : List (Fin s.rank)}

/-- A reduction by "and" from the initial value 1 is 1 at a result index into which only entries equal to 1 reduce. -/
theorem reduce_andi_ones (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  rw [Host.reduce_eq_foldl, hinit]
  refine foldl_andi_ones x _ fun i hi => hx i ?_
  simpa using (List.mem_filter.1 hi).2

end Cert.HostAll
-- ==== Proof.RefRun.lean ====
/-
  The reference program run as one straight line, and what its result holds.

  The reference is an embedding lookup written with a clamped row gather: it first normalises every label (a
  negative label has the number of rows added), then gathers one table row per label, and finally keeps the
  gathered row only where the normalised label lies in `[0, 99999]`, writing a fixed word elsewhere.  Its @main
  makes one call, whose body makes one more; with both bodies written out at their calls the program is a list of
  23 host operations, and the library's run theorem for such a list gives every buffer's final contents as the
  operations' composed function of the arguments.

  Under the input-domain predicate every label is already in `[0, 99999]`: normalising keeps it, the in-range mask
  is all ones, so the final select takes the gathered row everywhere, and the gathered row for label `w` is the
  table row `rowOf w`.  Hence the result is `Cert.Spec.lookup` of the table and the labels.
-/
import proofs.«208054_g70884140253208_cont_9to1_m_1136_23_alg».proof.Defs
import proofs.«208054_g70884140253208_cont_9to1_m_1136_23_alg».proof.Proof.Gen.ReferenceIdeal
import proofs.«208054_g70884140253208_cont_9to1_m_1136_23_alg».proof.Proof.Gen.Pre_input_domain
import proofs.«208054_g70884140253208_cont_9to1_m_1136_23_alg».proof.Proof.Spec
import proofs.«208054_g70884140253208_cont_9to1_m_1136_23_alg».proof.Proof.LabelRange
import proofs.«208054_g70884140253208_cont_9to1_m_1136_23_alg».proof.Proof.LibEdgeRead
import proofs.«208054_g70884140253208_cont_9to1_m_1136_23_alg».proof.Proof.LibHostAll
import Idealize.ShloMosaic.Lib.StableHlo.Run

noncomputable section

namespace Cert.ReferenceIdeal.RefRun

open Idealize.ShloMosaic Idealize.SL.Sem Cert.ReferenceIdeal
open Idealize.ShloMosaic.StableHlo Idealize.ShloMosaic.TcCoe Idealize.ShloMosaic.ValueIdx
open Cert.ReferenceIdeal.Facts₀

variable {F : FTy → Type} [FloatOps F]

/-! ## The program as one line -/

/-- @main's 23 operations in order, the two calls written out: the first six are the head of the lookup's body
    (the comparison of the labels with zero and the labels plus the row count), the seventh is the inner call's
    select between them, the rest are the lookup's body after that call. -/
abbrev ops : List (HloOp τ sig (Elt F)) :=
  [ TRef.nullary main_call0.c (constantI S_ 32 0#32),
    TRef.unary main_call0.c main_call0.v0 (broadcastInDim S4096 ![] bcast_S_S4096),
    TRef.binary (.of main_arg2) main_call0.v0 main_call0.v1 (cmpi .slt),
    TRef.nullary main_call0.c_0 (constantI S_ 32 100000#32),
    TRef.unary main_call0.c_0 main_call0.v2 (broadcastInDim S4096 ![] bcast_S_S4096),
    TRef.binary (.of main_arg2) main_call0.v2 main_call0.v3 addi,
    TRef.ternary main_call0.v1 main_call0.v3 (.of main_arg2) main_call0.call0.v0 select,
    TRef.unary main_call0.call0.v0 main_call0.v5 (broadcastInDim S4096x1 ![0] bcast_S4096_S4096x1_0),
    TRef.nullary main_call0.c_1 (constantI S1 32 99999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg3) main_call0.v5 main_call0.v13 (fun x i => Host.gather gather_S100000x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select ]

/-- @main is that line: the two bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## What the line leaves in each buffer -/

/-- The labels after the inner call's select: a negative label has the row count added, any other is kept. -/
def norm (lab : IVec S4096 32) : IVec S4096 32 :=
  select (cmpi .slt lab (broadcastInDim S4096 ![] bcast_S_S4096 (constantI S_ 32 0#32)))
    (addi lab (broadcastInDim S4096 ![] bcast_S_S4096 (constantI S_ 32 100000#32))) lab

/-- A vector of 4096 words as a column of start indices. -/
def col (v : IVec S4096 32) : IVec S4096x1 32 := broadcastInDim S4096x1 ![0] bcast_S4096_S4096x1_0 v

/-- The in-range mask of a column of start indices: per row, whether the index lies in `[0, 99999]`
    (the two comparisons, their conjunction, reduced by "and" over the unit axis). -/
def mask (ix : IVec S4096x1 32) : IVec S4096 1 :=
  Host.reduce IntOp.andi
    (andi (cmpi .sge ix (broadcastInDim S4096x1 ![] bcast_S_S4096x1 (constantI S_ 32 0#32)))
      (cmpi .sle ix (broadcastInDim S4096x1 ![0, 1] bcast_S1x1_S4096x1_0_1
        (broadcastInDim S1x1 ![1] bcast_S1_S1x1_1 (constantI S1 32 99999#32)))))
    (constantI S_ 1 1#1) reducesTo_S4096x1_S4096_d1 h_S_

/-- The operations' composed function of the table and the labels, the contents of the result buffer: where the
    mask holds the gathered row, elsewhere a fixed word. -/
def refVal (tbl : FVec F S100000x128 .f32) (lab : IVec S4096 32) : FVec F S4096x128 .f32 :=
  select (broadcastInDim S4096x128 ![0] bcast_S4096_S4096x128_0 (mask (col (norm lab))))
    (Host.gather gather_S100000x128_S4096x1_S4096x128_1_0_n_n_0_1_1128 tbl (col (norm lab)))
    (broadcastInDim S4096x128 ![] bcast_S_S4096x128 (constant S_ .f32 0x7FC00000#32))

attribute [local irreducible] Host.reduce Host.gather in
/-- The fold at the result buffer is `refVal` of the two arguments' contents: each operation's result is
    rewritten at its own buffer to its function's value and kept at any other, and what is left is the
    identity of the typed references' casts at literal references.  The reduction and the gather are kept
    folded meanwhile. -/
theorem out_eq (V : Valuation τ sig (Elt F)) :
    after ops V (main_v0 : DevRef τ sig) = refVal (V (main_arg3 : DevRef τ sig)) (V (main_arg2 : DevRef τ sig)) := by
  after_results
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

theorem arg3_eq (V : Valuation τ sig (Elt F)) : after ops V (main_arg3 : DevRef τ sig) = V (main_arg3 : DevRef τ sig) := by
  simp only [after_cons, after_nil]
  rfl

/-! ## The value under the range hypothesis -/

/-- Non-negative labels are kept by the normalisation. -/
theorem norm_of_nonneg (lab : IVec S4096 32) (h : ∀ i, 0 ≤ (lab i).toInt) : norm lab = lab :=
  funext fun i => EdgeRead.normIdx_of_nonneg 100000#32 (lab i) (h i)

/-- The column at row `e` is the vector's entry `e`. -/
theorem col_apply (v : IVec S4096 32) (e : Fin 4096) : col v (ix2 e (0 : Fin 1)) = v (ix1 e) :=
  broadcastInDim_apply _ _ v _ (ix1 e) (fun a => by match a with | ⟨0, _⟩ => rfl)

/-- With every label in `[0, 99999]` the mask of the labels' column is 1 everywhere. -/
theorem mask_of_inRange (lab : IVec S4096 32) (hr : ∀ i, 0 ≤ (lab i).toInt ∧ (lab i).toInt ≤ 99999) (j : S4096.Idx) :
    mask (col lab) j = 1#1 := by
  refine Cert.HostAll.reduce_andi_ones _ _ _ _ j rfl (fun i _ => ?_)
  obtain ⟨k, hk⟩ : ∃ k, col lab i = lab k := ⟨_, rfl⟩
  show IntOp.andi (IntOp.cmpi .sge (col lab i) 0#32) (IntOp.cmpi .sle (col lab i) 99999#32) = 1#1
  rw [hk, IntOp.andi_eq_one]
  exact ⟨IntOp.cmpi_sge.2 (by simpa using (hr k).1), IntOp.cmpi_sle.2 (by simpa using (hr k).2)⟩

/-- With every label in `[0, 99999]` the composed function is the lookup: the normalisation keeps the labels, the
    mask is all ones so the select takes the gathered row, and the row gathered for a label is the row it names. -/
theorem refVal_eq_lookup (tbl : FVec F S100000x128 .f32) (lab : IVec S4096 32)
    (hr : ∀ i, 0 ≤ (lab i).toInt ∧ (lab i).toInt ≤ 99999) : refVal tbl lab = Cert.Spec.lookup tbl lab := by
  funext i
  obtain ⟨p, q, rfl⟩ : ∃ p q, i = ix2 p q := ⟨i 0, i 1, eq_ix2 i⟩
  have hn : norm lab = lab := norm_of_nonneg lab fun i => (hr i).1
  have hmask : broadcastInDim S4096x128 ![0] bcast_S4096_S4096x128_0 (mask (col lab)) (ix2 p q) = 1#1 :=
    mask_of_inRange lab hr _
  unfold refVal
  rw [hn, select_apply, hmask, select_one, Cert.Spec.lookup_apply]
  refine (EdgeRead.gather_rows_apply (N := 100000) (E := 4096) (C := 128) (by decide) gather_S100000x128_S4096x1_S4096x128_1_0_n_n_0_1_1128_wf tbl (col lab) p q).trans ?_
  show tbl (ix2 (EdgeRead.clampRow 100000 _ (col lab (ix2 p (0 : Fin 1)))) q)
    = tbl (ix2 (EdgeRead.clampRow 100000 _ (lab (ix1 p))) q)
  rw [col_apply]

/-! ## The run -/

/-- On every device, from any memory with zero counters of which the input-domain predicate holds: every weakly
    fair execution of @main terminates with the result buffer at the lookup of the table and the labels, and the
    four arguments unchanged. -/
theorem run (m : (ℓ : Loc nD τ sig) → Buf (Elt Ideal) ℓ) (g : Dev nD → PrngReg) (hpre : Cert.Pre_ReferenceIdeal m) :
    θ_run (defs (F := Ideal)) (onTc (τ := τ) (main (F := Ideal))) ⟨m, fun _ => 0, g⟩ (fun r => ∀ c : Dev nD,
      r.2.mem ((c.tc : Thread nD τ).loc main_v0) = Cert.Spec.lookup (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v0).trans ((out_eq _).trans
          (refVal_eq_lookup _ _ (Cert.LabelRange.labels_in_range (F := Ideal) _ _ _ _ (hpre c)))),
        (h c main_arg0).trans (arg0_eq _), (h c main_arg1).trans (arg1_eq _),
        (h c main_arg2).trans (arg2_eq _), (h c main_arg3).trans (arg3_eq _)⟩)
    (run_seq scopedRefs_eq scopedSems_eq defs main (fun _ => ops) main_eq (fun _ => ops_sub) m g)

end Cert.ReferenceIdeal.RefRun

end
-- ==== Proof.TileBits.lean ====
/-
  One tile's task of the embedding lookup, and the obligation the launch asks of it.

  Tile s of SparseCore 0 owns rows 256 s .. 256 s + 255 of the labels and of the result.  It fetches its 256 labels
  into its index scratch, starts two indexed copies out of the table — rows named by labels 0..127 into the upper half
  of its row scratch on one semaphore, rows named by labels 128..255 into the lower half on another —, waits for both,
  and copies the row scratch out to its rows of the result.  Nothing touches the index scratch or the row scratch
  between the first issue and the last wait, and the two copies land on disjoint halves, so whatever order the engine
  serves them in the scratch ends at: row r of the scratch is the table's row named by label 256 s + r.
  Each label is a row number of the table (the certificate's precondition), which is what lets every entry of both
  index lists be served.
-/
import proofs.«208054_g70884140253208_cont_9to1_m_1136_23_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208054_g70884140253208_cont_9to1_m_1136_23_alg».proof.Proof.Gen.Kernel
import proofs.«208054_g70884140253208_cont_9to1_m_1136_23_alg».proof.Proof.Gen.Kernel.Skeleton
import proofs.«208054_g70884140253208_cont_9to1_m_1136_23_alg».proof.Proof.Spec

noncomputable section

namespace Cert.Proof.TileBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev labLoc (d : Dev nD) : Loc nD τ sig := (SparseCore.T d).loc main_arg2
abbrev tblLoc (d : Dev nD) : Loc nD τ sig := (SparseCore.T d).loc main_arg3
abbrev outLoc (d : Dev nD) : Loc nD τ sig := (SparseCore.T d).loc main_v0

local notation "labV" => (Memref.whole Cert.Kernel.main_arg2_scv : Memref Cert.Kernel.sig Kind.scVector Space.hbm Cert.Kernel.S4096 EltTy.i32)
local notation "tblV" => (Memref.whole Cert.Kernel.main_arg3_scv : Memref Cert.Kernel.sig Kind.scVector Space.hbm Cert.Kernel.S100000x128 EltTy.f32)
local notation "outV" => (Memref.whole Cert.Kernel.main_v0_scv : Memref Cert.Kernel.sig Kind.scVector Space.hbm Cert.Kernel.S4096x128 EltTy.f32)
local notation "idxV" => (Memref.whole Cert.Kernel.cc0_scratch0 : Memref Cert.Kernel.sig Kind.scVector Space.vmem Cert.Kernel.S256 EltTy.i32)
local notation "rowsV" => (Memref.whole Cert.Kernel.cc0_scratch1 : Memref Cert.Kernel.sig Kind.scVector Space.vmem Cert.Kernel.S256x128 EltTy.f32)

theorem ldiv : 16 ∣ S4096.size 0 := ⟨256, rfl⟩
theorem odiv : 16 ∣ S4096x128.size 0 := ⟨256, rfl⟩
/-- Tile i's 256 labels and its 256 rows of the result. -/
abbrev lrow (i : Fin 16) : Rect S4096 := Rect.part (s := S4096) (a₀ := 0) ldiv i
abbrev orow (i : Fin 16) : Rect S4096x128 := Rect.part (s := S4096x128) (a₀ := 0) odiv i
abbrev labRowSet (i : Fin 16) : Finset S4096.Idx := ((labV).view.slice (lrow i)).set
abbrev outRowSet (i : Fin 16) : Finset S4096x128.Idx := ((outV).view.slice (orow i)).set

/-- Tile i's read share of the table. -/
abbrev xq (i : Fin 16) : PosShare TreeShare := Transfers.shareTok fullShare 16 i

/-- What the proof asks of the launch memory: every label is a row number of the table. -/
def PreOK : Prop := ∀ (d : Dev nD) (j : S4096.Idx), 0 ≤ (m (labLoc d) j).toInt ∧ (m (labLoc d) j).toInt ≤ 99999

/-- What a tile leaves in its rows of the result: there the result is the lookup. -/
def RowsOK (d : Dev nD) (i : Fin 16) (f : Buf (Elt F) (outLoc d)) : Prop :=
  ∀ x ∈ outRowSet i, f x = Cert.Spec.lookup (m (tblLoc d)) (m (labLoc d)) x

variable [FloatOps F]

/-! ## What the handshakes carry -/

abbrev labPts (d : Dev nD) : sProp 𝕄 := labLoc d ↦{fullShare} m (labLoc d)
abbrev tblPts (d : Dev nD) : sProp 𝕄 := tblLoc d ↦{fullShare} m (tblLoc d)
abbrev outPts (d : Dev nD) (f : Buf (Elt F) (outLoc d)) : sProp 𝕄 := outLoc d ↦{fullShare} f
abbrev labRowPts (d : Dev nD) (i : Fin 16) : sProp 𝕄 := labLoc d ↦[labRowSet i]{fullShare} m (labLoc d)
abbrev tblShPts (d : Dev nD) (i : Fin 16) : sProp 𝕄 := tblLoc d ↦{xq i} m (tblLoc d)
abbrev outRowPts (d : Dev nD) (i : Fin 16) (f : Buf (Elt F) (outLoc d)) : sProp 𝕄 := outLoc d ↦[outRowSet i]{fullShare} f

/-- The one call takes the labels, the table and the result whole; each task its labels, its share of the table and its
    rows of the result, and brings them back, the result's rows at the lookup. -/
def P : (K (F := F)).Pay (nD := nD) (Val := Elt F) (Name := ℕ) (U := UU) where
  st := fun q d _ => match q with | 0 => iprop(labPts m d ∗ tblPts m d ∗ outPts d (m (outLoc d)))
  dn := fun q d _ => match q with | 0 => iprop(labPts m d ∗ tblPts m d ∗ outPts d (Cert.Spec.lookup (m (tblLoc d)) (m (labLoc d))))
  go := fun q d _ i => match q with
    | 0 => iprop(labRowPts m d (Fin.cast nSub_zero i) ∗ tblShPts m d (Fin.cast nSub_zero i) ∗ outRowPts d (Fin.cast nSub_zero i) (m (outLoc d)))
  td := fun q d _ i => match q with
    | 0 => iprop(labRowPts m d (Fin.cast nSub_zero i) ∗ tblShPts m d (Fin.cast nSub_zero i)
        ∗ ∃ f, ⌜RowsOK m d (Fin.cast nSub_zero i) f⌝ ∗ outRowPts d (Fin.cast nSub_zero i) f)
  x := fun _ _ => iprop(emp)

instance P_storable : (P (F := F) m).IsStorable where
  st q d _ := match q with
    | 0 => (inferInstance : BI.Storable (upEmb : UEmb _ 𝕄) iprop(labPts m d ∗ tblPts m d ∗ outPts d (m (outLoc d))))
  dn q d _ := match q with
    | 0 => (inferInstance : BI.Storable (upEmb : UEmb _ 𝕄) iprop(labPts m d ∗ tblPts m d ∗ outPts d (Cert.Spec.lookup (m (tblLoc d)) (m (labLoc d)))))
  go q d _ i := match q with
    | 0 => (inferInstance : BI.Storable (upEmb : UEmb _ 𝕄)
      iprop(labRowPts m d (Fin.cast nSub_zero i) ∗ tblShPts m d (Fin.cast nSub_zero i) ∗ outRowPts d (Fin.cast nSub_zero i) (m (outLoc d))))
  td q d _ i := match q with
    | 0 => (inferInstance : BI.Storable (upEmb : UEmb _ 𝕄)
      iprop(labRowPts m d (Fin.cast nSub_zero i) ∗ tblShPts m d (Fin.cast nSub_zero i)
        ∗ ∃ f, ⌜RowsOK m d (Fin.cast nSub_zero i) f⌝ ∗ outRowPts d (Fin.cast nSub_zero i) f))

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
omit [FloatOps F] in
theorem bound_one : grid0.bound 1 = 16 := rfl
abbrev jL (L : grid0.Coords) : Fin 16 := Fin.cast bound_one (L 1)

abbrev lrowK (L : grid0.Coords) : Rect S4096 := Rect.unit (s := S4096) (k0_off1 L) S256.size (k0_off1_inb L)
abbrev orowK (L : grid0.Coords) : Rect S4096x128 := Rect.unit (s := S4096x128) (k0_off2 L) S256x128.size (k0_off2_inb L)
/-- The tile's labels and its rows of the result, as the task addresses them. -/
abbrev labRowK (L : grid0.Coords) : Memref sig .scVector .hbm S256 .i32 := (labV).slice (lrowK L) (fun _ => rfl)
abbrev outRowK (L : grid0.Coords) : Memref sig .scVector .hbm S256x128 .f32 := (outV).slice (orowK L) (fun _ => rfl)

/-- The task's four DMA semaphores at zero. -/
abbrev cells0 (d : Dev nD) (L : grid0.Coords) : sProp 𝕄 :=
  iprop(semVal (VT d L, SemLoc.dma cc0_scratch2.sem) 0 ∗ semVal (VT d L, SemLoc.dma cc0_scratch3.sem) 0
    ∗ semVal (VT d L, SemLoc.dma cc0_scoped0.sem) 0 ∗ semVal (VT d L, SemLoc.dma cc0_scoped1.sem) 0)

/-! ### The pieces the launch deals, in the body's spelling -/

omit [FloatOps F] in
theorem lrowK_eq : lrowK L = lrow (jL L) := by
  have h0 : (L 0).val = 0 := Nat.lt_one_iff.mp (L 0).isLt
  unfold lrowK lrow Rect.part Rect.block
  congr 1 <;> funext a
  · rw [k0_off1_eq]
    match a with
    | 0 => simp [Shape.partIx, Shape.partSize]; omega
  · match a with
    | 0 => simp [Shape.partSize]
omit [FloatOps F] in
theorem orowK_eq : orowK L = orow (jL L) := by
  have h0 : (L 0).val = 0 := Nat.lt_one_iff.mp (L 0).isLt
  unfold orowK orow Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_labRowK : (labRowK L).view.set = labRowSet (jL L) := by
  show ((labV).view.slice (lrowK L)).set = ((labV).view.slice (lrow (jL L))).set
  exact lrowK_eq L ▸ rfl
omit [FloatOps F] in
theorem set_outRowK : (outRowK L).view.set = outRowSet (jL L) := by
  show ((outV).view.slice (orowK L)).set = ((outV).view.slice (orow (jL L))).set
  exact orowK_eq L ▸ rfl

omit [FloatOps F] in
theorem pts_labRowK (f : Buf (Elt F) (labLoc d)) :
    ((labRowK L).view.loc (VT d L) ↦[(labRowK L).view.set]{fullShare} f : sProp 𝕄) = labLoc d ↦[labRowSet (jL L)]{fullShare} f := by
  rw [set_labRowK]
omit [FloatOps F] in
theorem pts_outRowK (f : Buf (Elt F) (outLoc d)) :
    ((outRowK L).view.loc (VT d L) ↦[(outRowK L).view.set]{fullShare} f : sProp 𝕄) = outLoc d ↦[outRowSet (jL L)]{fullShare} f := by
  rw [set_outRowK]
omit [FloatOps F] in
theorem pts_tblV (q : PosShare TreeShare) (f : Buf (Elt F) (tblLoc d)) :
    ((tblV).view.loc (VT d L) ↦{q} f : sProp 𝕄) = tblLoc d ↦{q} f := rfl
omit [FloatOps F] in
theorem pts_idxV (f : Buf (Elt F) ((VT d L).loc cc0_scratch0)) :
    ((idxV).view.loc (VT d L) ↦[(idxV).view.set]{fullShare} f : sProp 𝕄) = (VT d L).loc cc0_scratch0 ↦{fullShare} f := by
  simp only [Memref.view_whole, View.set_whole]
omit [FloatOps F] in
theorem pts_rowsV (f : Buf (Elt F) ((VT d L).loc cc0_scratch1)) :
    ((rowsV).view.loc (VT d L) ↦[(rowsV).view.set]{fullShare} f : sProp 𝕄) = (VT d L).loc cc0_scratch1 ↦{fullShare} f := by
  simp only [Memref.view_whole, View.set_whole]

/-- A label in range, read as an unsigned word, is below the table's row count. -/
theorem toNat_lt_of_range (w : BitVec 32) (h : 0 ≤ w.toInt ∧ w.toInt ≤ 99999) : w.toNat < 100000 := by
  have := h.1; have := h.2
  rw [BitVec.toInt_eq_toNat_cond] at *
  split at * <;> omega

/-- What the label fetch lands in the index scratch: the tile's 256 labels. -/
abbrev PAY : S256.Idx → Elt F .i32 := ReadAs.same.apply ((labRowK L).view.read (Elt F) (m (labLoc d)))

omit [FloatOps F] in
theorem PAY_apply (x : S256.Idx) : PAY m d L x = m (labLoc d) ((labRowK L).view.emb x) :=
  (View.read_apply _ _).trans (cast_eq _ _)

omit [FloatOps F] in
/-- Every word of a 128-word window of the index scratch, after the fetch, is one of the tile's labels: a row number of
    the table.  For any window offset and any prior contents of the scratch. -/
theorem inb_of_pre (hpre : PreOK m) (g : Buf (Elt F) ((idxV).view.loc (VT d L)))
    (pay : S256.Idx → Elt F .i32) (hpay : pay = PAY m d L) (off : Fin 1 → Nat)
    (hk : ∀ a, off a + S128.size a ≤ S256.size a) :
    ∀ x, (View.read (Elt F) ((idxV).slice (Rect.unit (s := S256) off S128.size hk) (fun _ => rfl)).view
        ((idxV).view.writes (Elt F) g [⟨Rect.whole cc0_scratch0.ty.shape, pay⟩]) x).toNat < 100000 := by
  subst hpay; intro x
  have e : View.read (Elt F) ((idxV).slice (Rect.unit (s := S256) off S128.size hk) (fun _ => rfl)).view
        ((idxV).view.writes (Elt F) g [⟨Rect.whole cc0_scratch0.ty.shape, PAY m d L⟩]) x
      = View.read (Elt F) (idxV).view ((idxV).view.writes (Elt F) g [⟨Rect.whole cc0_scratch0.ty.shape, PAY m d L⟩])
          ((Rect.unit (s := S256) off S128.size hk).emb x) := by
    rw [View.read_apply, View.read_apply]; rfl
  rw [e, View.read_writes_whole, PAY_apply]
  exact toNat_lt_of_range _ (hpre d _)

/-! ### What the task leaves in its row scratch and in its rows of the result -/

/-- Label k of the tile: label 256 s + k of the array. -/
abbrev labAt (k : Fin 256) : BitVec 32 := m (labLoc d) ((labRowK L).view.emb (ValueIdx.ix1 k))

/-- The table row that the tile's label k names (a row number, by the precondition). -/
def rowN (hpre : PreOK m) (k : Fin 256) : Fin 100000 := ⟨(labAt m d L k).toNat, toNat_lt_of_range _ (hpre d _)⟩

/-- What the row scratch ends at: row r is the table's row named by the tile's label r. -/
def scrG (hpre : PreOK m) : S256x128.Idx → Elt F .f32 :=
  fun y => m (tblLoc d) (ValueIdx.ix2 (rowN m d L hpre ⟨(y 0).val, (y 0).isLt⟩) (⟨(y 1).val, (y 1).isLt⟩ : Fin 128))

omit [FloatOps F] in
/-- One indexed copy's payload, entry by entry: the copy of the 128 rows named by the window of the index scratch at
    offset off writes, through the window of the row scratch at the same offset, the values of scrG. -/
theorem gather_piece (hpre : PreOK m) (g : Buf (Elt F) ((idxV).view.loc (VT d L))) (off : Fin 1 → Nat)
    (hk : ∀ a, off a + S128.size a ≤ S256.size a)
    (hk2 : ∀ a, (![off 0, 0] : Fin 2 → Nat) a + S128x128.size a ≤ S256x128.size a)
    (hn : S128.numel = S128x128.size gathers_S100000x128_S128x128.axis')
    (hin : ∀ x, (View.read (Elt F) ((idxV).slice (Rect.unit (s := S256) off S128.size hk) (fun _ => rfl)).view
        ((idxV).view.writes (Elt F) g [⟨Rect.whole cc0_scratch0.ty.shape, PAY m d L⟩]) x).toNat
          < S100000x128.size gathers_S100000x128_S128x128.axis)
    (x : S128x128.Idx) :
    SparseCore.gatherPayload gathers_S100000x128_S128x128
      (View.read (Elt F) ((tblV).slice (Rect.unit (s := S100000x128) ![0, 0] S100000x128.size inb_S100000x128_S100000x128_0_0) (fun _ => rfl)).view (m (tblLoc d)))
      (SparseCore.rows (View.read (Elt F) ((idxV).slice (Rect.unit (s := S256) off S128.size hk) (fun _ => rfl)).view
        ((idxV).view.writes (Elt F) g [⟨Rect.whole cc0_scratch0.ty.shape, PAY m d L⟩])) hn hin) x
    = scrG m d L hpre ((Rect.unit (s := S256x128) ![off 0, 0] S128x128.size hk2).emb x) := by
  -- the word the stream reads for row x 0 of the window is the tile's label off + x 0
  have hword : ∀ z : S128.Idx, View.read (Elt F) ((idxV).slice (Rect.unit (s := S256) off S128.size hk) (fun _ => rfl)).view
        ((idxV).view.writes (Elt F) g [⟨Rect.whole cc0_scratch0.ty.shape, PAY m d L⟩]) z
      = m (labLoc d) ((labRowK L).view.emb ((Rect.unit (s := S256) off S128.size hk).emb z)) := by
    intro z
    have e : View.read (Elt F) ((idxV).slice (Rect.unit (s := S256) off S128.size hk) (fun _ => rfl)).view
          ((idxV).view.writes (Elt F) g [⟨Rect.whole cc0_scratch0.ty.shape, PAY m d L⟩]) z
        = View.read (Elt F) (idxV).view ((idxV).view.writes (Elt F) g [⟨Rect.whole cc0_scratch0.ty.shape, PAY m d L⟩])
            ((Rect.unit (s := S256) off S128.size hk).emb z) := by
      rw [View.read_apply, View.read_apply]; rfl
    rw [e, View.read_writes_whole, PAY_apply]
  unfold SparseCore.gatherPayload scrG
  rw [View.read_apply]
  refine (cast_eq _ _).trans ?_
  refine congrArg (m (tblLoc d)) (funext fun b => Fin.ext ?_)
  match b with
  | ⟨0, hb0⟩ =>
    show (![0, 0] : Fin 2 → Nat) 0 + 1 * (gathers_S100000x128_S128x128.idx _ x gathers_S100000x128_S128x128.axis).val
      = (labAt m d L ⟨((Rect.unit (s := S256x128) ![off 0, 0] S128x128.size hk2).emb x 0).val, _⟩).toNat
    rw [Shape.Gathers.idx_axis]
    dsimp only [SparseCore.rows]
    rw [hword]
    have hz : (Rect.unit (s := S256) off S128.size hk).emb
          (S128.rowMajor.symm ((x gathers_S100000x128_S128x128.axis').cast hn.symm))
        = ValueIdx.ix1 (⟨((Rect.unit (s := S256x128) ![off 0, 0] S128x128.size hk2).emb x 0).val,
            ((Rect.unit (s := S256x128) ![off 0, 0] S128x128.size hk2).emb x 0).isLt⟩ : Fin 256) := by
      funext a; refine Fin.ext ?_
      match a with
      | ⟨0, _⟩ =>
        show off 0 + 1 * ((S128.rowMajor.symm ((x gathers_S100000x128_S128x128.axis').cast hn.symm)) 0).val
          = (![off 0, 0] : Fin 2 → Nat) 0 + 1 * (x 0).val
        rw [← Shape.rowMajor_val_one, Equiv.apply_symm_apply]; rfl
    show 0 + 1 * _ = _
    rw [Nat.zero_add, Nat.one_mul]
    exact congrArg (fun i => (m (labLoc d) ((labRowK L).view.emb i)).toNat) hz
  | ⟨1, hb1⟩ =>
    show (![0, 0] : Fin 2 → Nat) 1 + 1 * (gathers_S100000x128_S128x128.idx _ x ⟨1, hb1⟩).val
      = ((Rect.unit (s := S256x128) ![off 0, 0] S128x128.size hk2).emb x 1).val
    rw [Shape.Gathers.idx_of_ne _ _ _ _ (show (1 : ℕ) ≠ 0 by decide)]
    show 0 + 1 * (x 1).val = 0 + 1 * (x 1).val
    rfl

omit [FloatOps F] in
/-- The row scratch after both copies reads, everywhere, as scrG: rows 0..127 through the first window, rows 128..255
    through the second, whatever the scratch held before. -/
theorem scr_read (hpre : PreOK m) (g : Buf (Elt F) ((idxV).view.loc (VT d L))) (t0 : Buf (Elt F) ((rowsV).view.loc (VT d L)))
    (hn : S128.numel = S128x128.size gathers_S100000x128_S128x128.axis')
    (hin0 : ∀ x, (View.read (Elt F) ((idxV).slice (Rect.unit (s := S256) ![0] S128.size inb_S256_S128_0) (fun _ => rfl)).view
        ((idxV).view.writes (Elt F) g [⟨Rect.whole cc0_scratch0.ty.shape, PAY m d L⟩]) x).toNat
          < S100000x128.size gathers_S100000x128_S128x128.axis)
    (hin1 : ∀ x, (View.read (Elt F) ((idxV).slice (Rect.unit (s := S256) ![128] S128.size inb_S256_S128_128) (fun _ => rfl)).view
        ((idxV).view.writes (Elt F) g [⟨Rect.whole cc0_scratch0.ty.shape, PAY m d L⟩]) x).toNat
          < S100000x128.size gathers_S100000x128_S128x128.axis)
    (y : S256x128.Idx) :
    View.read (Elt F) (rowsV).view
      ((rowsV).view.writes (Elt F) t0
        [⟨Rect.unit (s := S256x128) ![128, 0] S128x128.size inb_S256x128_S128x128_128_0,
            SparseCore.gatherPayload gathers_S100000x128_S128x128
              (View.read (Elt F) ((tblV).slice (Rect.unit (s := S100000x128) ![0, 0] S100000x128.size inb_S100000x128_S100000x128_0_0) (fun _ => rfl)).view (m (tblLoc d)))
              (SparseCore.rows (View.read (Elt F) ((idxV).slice (Rect.unit (s := S256) ![128] S128.size inb_S256_S128_128) (fun _ => rfl)).view
                ((idxV).view.writes (Elt F) g [⟨Rect.whole cc0_scratch0.ty.shape, PAY m d L⟩])) hn hin1)⟩,
          ⟨Rect.unit (s := S256x128) ![0, 0] S128x128.size inb_S256x128_S128x128_0_0,
            SparseCore.gatherPayload gathers_S100000x128_S128x128
              (View.read (Elt F) ((tblV).slice (Rect.unit (s := S100000x128) ![0, 0] S100000x128.size inb_S100000x128_S100000x128_0_0) (fun _ => rfl)).view (m (tblLoc d)))
              (SparseCore.rows (View.read (Elt F) ((idxV).slice (Rect.unit (s := S256) ![0] S128.size inb_S256_S128_0) (fun _ => rfl)).view
                ((idxV).view.writes (Elt F) g [⟨Rect.whole cc0_scratch0.ty.shape, PAY m d L⟩])) hn hin0)⟩]) y
      = scrG m d L hpre y := by
  refine View.read_writes_apply_of_pieces _ _ (scrG m d L hpre) _ ?_ y ?_
  · intro p hp
    rcases List.mem_cons.mp hp with rfl | hp
    · exact fun x => gather_piece m d L hpre g ![128] inb_S256_S128_128 inb_S256x128_S128x128_128_0 hn hin1 x
    · obtain rfl := List.mem_singleton.mp hp
      exact fun x => gather_piece m d L hpre g ![0] inb_S256_S128_0 inb_S256x128_S128x128_0_0 hn hin0 x
  · have h0 : (y 0).val < 256 := (y 0).isLt
    have h1 : (y 1).val < 128 := (y 1).isLt
    by_cases h : (y 0).val < 128
    · refine ⟨_, List.mem_cons_of_mem _ (List.mem_singleton.mpr rfl), ?_⟩
      rw [Rect.mem_set_unit]
      intro a
      match a with
      | ⟨0, _⟩ => show 0 ≤ (y 0).val ∧ (y 0).val < 0 + 128; omega
      | ⟨1, _⟩ => show 0 ≤ (y 1).val ∧ (y 1).val < 0 + 128; omega
    · refine ⟨_, List.mem_cons_self .., ?_⟩
      rw [Rect.mem_set_unit]
      intro a
      match a with
      | ⟨0, _⟩ => show 128 ≤ (y 0).val ∧ (y 0).val < 128 + 128; omega
      | ⟨1, _⟩ => show 0 ≤ (y 1).val ∧ (y 1).val < 0 + 128; omega

omit [FloatOps F] in
/-- The tile's rows of the result after the copy-out: there the result is the lookup. -/
theorem rows_ok (hpre : PreOK m) (pay : S256x128.Idx → Elt F .f32) (hpay : pay = scrG m d L hpre) :
    RowsOK m d (jL L) ((outRowK L).view.writes (Elt F) (m (outLoc d)) [⟨Rect.whole S256x128, pay⟩]) := by
  subst hpay
  intro x hx
  rw [← set_outRowK] at hx
  obtain ⟨y, rfl⟩ := View.exists_emb_of_mem_set (outRowK L).view hx
  have e1 : ((outRowK L).view.writes (Elt F) (m (outLoc d)) [⟨Rect.whole S256x128, scrG m d L hpre⟩]) ((outRowK L).view.emb y)
      = (outRowK L).view.read (Elt F) ((outRowK L).view.writes (Elt F) (m (outLoc d)) [⟨Rect.whole S256x128, scrG m d L hpre⟩]) y :=
    ((View.read_apply _ _).trans (cast_eq _ _)).symm
  rw [e1, View.read_writes_whole]
  unfold scrG Cert.Spec.lookup
  refine congrArg (m (tblLoc d)) (funext fun b => Fin.ext ?_)
  have hx0 : (((outRowK L).view.emb y) 0).val = 256 * (L 1).val + 256 * (L 0).val + (y 0).val := by
    show k0_off2 L 0 + 1 * (y 0).val = _
    rw [k0_off2_eq]; simp
  have hx1 : (((outRowK L).view.emb y) 1).val = (y 1).val := by
    show k0_off2 L 1 + 1 * (y 1).val = _
    rw [k0_off2_eq]; simp
  have key : ∀ w : BitVec 32, (0 ≤ w.toInt ∧ w.toInt ≤ 99999) → w.toNat = (Cert.Spec.rowOf w).val := by
    intro w hw
    show w.toNat = min w.toInt.toNat (100000 - 1)
    have := hw.1; have := hw.2
    rw [BitVec.toInt_eq_toNat_cond] at *
    split at * <;> omega
  match b with
  | ⟨0, _⟩ =>
    have hl : m (labLoc d) ((labRowK L).view.emb (ValueIdx.ix1 (⟨(y 0).val, (y 0).isLt⟩ : Fin 256)))
        = m (labLoc d) (ValueIdx.ix1 (n := 4096) (((outRowK L).view.emb y) 0)) := by
      refine congrArg (m (labLoc d)) (funext fun a => Fin.ext ?_)
      match a with
      | ⟨0, _⟩ =>
        show k0_off1 L 0 + 1 * (y 0).val = (((outRowK L).view.emb y) 0).val
        rw [hx0, k0_off1_eq]; simp
    exact (congrArg BitVec.toNat hl).trans (key _ (hpre d _))
  | ⟨1, _⟩ => exact hx1.symm

/-- The task's body run from the pieces the launch dealt it, in the body's spelling. -/
theorem tile_run (hpre : PreOK m) (O : CellTallies nD τ sig (HIx 1)) (W : Waits sig (HIx 1))
    (g0 : Buf (Elt F) ((idxV).view.loc (VT d L))) (t0 : Buf (Elt F) ((rowsV).view.loc (VT d L))) :
    (iprop(Transfers.MayWaits (VT d L) (default : HIx 1) O
        ∗ ((labRowK L).view.loc (VT d L) ↦[(labRowK L).view.set]{fullShare} m (labLoc d))
        ∗ ((tblV).view.loc (VT d L) ↦{Transfers.shareTokN (xq (jL L)) 0} m (tblLoc d))
        ∗ ((tblV).view.loc (VT d L) ↦{Transfers.shareTokN (xq (jL L)) 1} m (tblLoc d))
        ∗ ((outRowK L).view.loc (VT d L) ↦[(outRowK L).view.set]{fullShare} m (outLoc d))
        ∗ ((idxV).view.loc (VT d L) ↦[(idxV).view.set]{fullShare} g0)
        ∗ ((rowsV).view.loc (VT d L) ↦[(rowsV).view.set]{fullShare} t0)
        ∗ cells0 d L
        ∗ owes (VT d L) O W) : sProp 𝕄)
      ⊢ wp frame (wpE (defs₀ (F := F)) 𝒱₀ (VT d L) none) Set.univ
          (cc0_gather_kernel L labV (Memref.isWhole_whole _) tblV (Memref.isWhole_whole _) outV (Memref.isWhole_whole _)
            idxV (Memref.isWhole_whole _) rowsV (Memref.isWhole_whole _) cc0_scratch2 cc0_scratch3 cc0_scoped0 cc0_scoped1)
          fun _ => iprop(((labRowK L).view.loc (VT d L) ↦[(labRowK L).view.set]{fullShare} m (labLoc d))
            ∗ ((tblV).view.loc (VT d L) ↦{Transfers.shareTokN (xq (jL L)) 0} m (tblLoc d))
            ∗ ((tblV).view.loc (VT d L) ↦{Transfers.shareTokN (xq (jL L)) 1} m (tblLoc d))
            ∗ (∃ f, ⌜RowsOK m d (jL L) f⌝ ∗ (outRowK L).view.loc (VT d L) ↦[(outRowK L).view.set]{fullShare} f)
            ∗ (∃ g, (idxV).view.loc (VT d L) ↦[(idxV).view.set]{fullShare} g)
            ∗ (∃ g, (rowsV).view.loc (VT d L) ↦[(rowsV).view.set]{fullShare} g)
            ∗ cells0 d L
            ∗ ∃ W', owes (VT d L) O W') := by
  iintro ⟨#Hmw, HI, HX0, HX1, HO, HG, HT, ⟨Hc0, Hc1, Hc2, Hc3⟩, HOw⟩
  sl_unfold [cc0_gather_kernel]
  sl_exec
  have hidx0 := fun g => inb_of_pre m d L hpre g (tile_run.sl.dma0 m d L) rfl ![0] inb_S256_S128_0
  have hidx1 := fun g => inb_of_pre m d L hpre g (tile_run.sl.dma0 m d L) rfl ![128] inb_S256_S128_128
  sl_exec
  sl_step
  isplitl [HI]; · iexact HI
  isplitl [HX0]; · iexact HX0
  isplitl [HX1]; · iexact HX1
  isplitl [HO]
  · iexists ((outRowK L).view.writes (Elt F) (m (outLoc d)) [⟨Rect.whole S256x128, tile_run.sl.dma0_1 m d L t0 hidx0 hidx1⟩])
    isplitr
    · ipureintro
      exact rows_ok m d L hpre (tile_run.sl.dma0_1 m d L t0 hidx0 hidx1)
        (funext fun y => scr_read m d L hpre (idxV).view.junk t0 (by decide) (hidx0 (idxV).view.junk) (hidx1 (idxV).view.junk) y)
    · iexact HO
  isplitl [HG]; · iexists _; iexact HG
  isplitl [HT]; · iexists _; iexact HT
  isplitl [Hc0 Hc1 Hc2 Hc3]
  · isplitl [Hc0]; · iexact Hc0
    isplitl [Hc1]; · iexact Hc1
    isplitl [Hc2]; · iexact Hc2
    iexact Hc3
  iexists _; iexact HOw

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)

omit [FloatOps F] in
/-- The task's four DMA semaphores are among the subcore's scoped ones: they are them, and the rest. -/
theorem ownSems0_V :
    (ownSems0 (VT d L) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (VT d L)).erase (cAcell d (cV L) (jV L))).erase (cBcell d (cV L) (jV L))).erase (cCcell d (cV L) (jV L))).erase (cDcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩),
    SparseCore.bigSep_erase' (Finset.mem_erase.mpr ⟨by simp [cCcell, cDcell]; decide, Finset.mem_erase.mpr ⟨by simp [cBcell, cDcell]; decide,
      Finset.mem_erase.mpr ⟨by simp [cAcell, cDcell]; decide,
      (mem_ownCells (g := cDcell d (cV L) (jV L))).mpr ⟨rfl, by show (SemLoc.dma cc0_scoped1.sem : SemLoc sig).isScoped .scVector = true; decide⟩⟩⟩⟩)]

omit [FloatOps F] in
/-- The two scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The task's share of the table as what stays with it and one read token per indexed copy. -/
theorem tblToks (q : PosShare TreeShare) (f : Buf (Elt F) (tblLoc d)) :
    (tblLoc d ↦{q} f : sProp 𝕄) ⊣⊢ iprop((tblLoc d ↦{Transfers.shareDrop q 2} f) ∗ (tblLoc d ↦{Transfers.shareTokN q 0} f) ∗ (tblLoc d ↦{Transfers.shareTokN q 1} f)) := by
  have h : (tblLoc d ↦{q} f : sProp 𝕄) ⊣⊢ iprop((tblLoc d ↦{Transfers.shareDrop q 2} f) ∗ bigSep (Finset.range 2) fun i => tblLoc d ↦{Transfers.shareTokN q i} f) :=
    Transfers.pointsTo_toks_range (ℓ := tblLoc d) (S := Finset.univ) (f := f) q 2
  rw [show Finset.range 2 = {0, 1} by decide, SparseCore.bigSep_insert' (by decide), bigSep_singleton] at h
  exact h

/-- The task on vector subcore (L 0, L 1) of device d, from what the launch deals it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (labRowPts m d (jL L) ∗ tblShPts m d (jL L) ∗ outRowPts d (jL L) (m (outLoc d)))
        ∗ scopedBufs (VT d L) ∗ scopedSems0 (VT d L) ∗ owes (VT d L) O W)
      ⊢ wp frame (wpE (defs₀ (F := F)) 𝒱₀ (VT d L) none) Set.univ
          (cc0_gather_kernel L labV (Memref.isWhole_whole _) tblV (Memref.isWhole_whole _) outV (Memref.isWhole_whole _)
            idxV (Memref.isWhole_whole _) rowsV (Memref.isWhole_whole _) cc0_scratch2 cc0_scratch3 cc0_scoped0 cc0_scoped1)
          fun _ => iprop((labRowPts m d (jL L) ∗ tblShPts m d (jL L) ∗ ∃ f, ⌜RowsOK m d (jL L) f⌝ ∗ outRowPts d (jL L) f)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%g0, HG⟩, ⟨%t0, HT⟩, Hbufs⟩, ⟨HcA, HcB, HcC, HcD, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (pts_labRowK (F := F) d L _).symm) $$ Hi
  ihave Ho' := (Entails.of_eq (pts_outRowK (F := F) d L _).symm) $$ Ho
  ihave HG' := (Entails.of_eq (pts_idxV (F := F) d L _).symm) $$ HG
  ihave HT' := (Entails.of_eq (pts_rowsV (F := F) d L _).symm) $$ HT
  ihave Hx' := (tblToks d (xq (jL L)) (m (tblLoc d))).1 $$ Hx
  icases Hx' with ⟨Hxr, Hx0, Hx1⟩
  iapply (wp_wand_r Idealize.ShloMosaic.frame (wpE (defs₀ (F := F)) 𝒱₀ (VT d L) none) Set.univ)
  isplitl [Hi' Hx0 Hx1 Ho' HG' HT' HcA HcB HcC HcD HO]
  · iapply (tile_run m d L hpre O W g0 t0)
    isplitr; · iexact Hmw
    isplitl [Hi']; · iexact Hi'
    isplitl [Hx0]; · iexact Hx0
    isplitl [Hx1]; · iexact Hx1
    isplitl [Ho']; · iexact Ho'
    isplitl [HG']; · iexact HG'
    isplitl [HT']; · iexact HT'
    isplitl [HcA HcB HcC HcD]
    · isplitl [HcA]; · iexact HcA
      isplitl [HcB]; · iexact HcB
      isplitl [HcC]; · iexact HcC
      iexact HcD
    iexact HO
  iintro %_ ⟨Hi', Hx0, Hx1, ⟨%f, %hf, Ho'⟩, ⟨%g, HG'⟩, ⟨%t, HT'⟩, ⟨HcA, HcB, HcC, HcD⟩, ⟨%W', HO⟩⟩
  ihave Hx := (tblToks d (xq (jL L)) (m (tblLoc d))).2 $$ [Hxr Hx0 Hx1]
  · isplitl [Hxr]; · iexact Hxr
    isplitl [Hx0]; · iexact Hx0
    iexact Hx1
  isplitl [Hi' Hx Ho']
  · isplitl [Hi']; · iapply (Entails.of_eq (pts_labRowK (F := F) d L _)); iexact Hi'
    isplitl [Hx]; · iexact Hx
    iexists f; isplitr
    · ipureintro; exact hf
    · iapply (Entails.of_eq (pts_outRowK (F := F) d L _)); iexact Ho'
  isplitl [HG' HT' Hbufs]
  · isplitl [HG']; · iexists _; iapply (Entails.of_eq (pts_idxV (F := F) d L _)); iexact HG'
    isplitl [HT']; · iexists _; iapply (Entails.of_eq (pts_rowsV (F := F) d L _)); iexact HT'
    iexact Hbufs
  isplitl [HcA HcB HcC HcD Hsems]
  · isplitl [HcA]; · iexact HcA
    isplitl [HcB]; · iexact HcB
    isplitl [HcC]; · iexact HcC
    isplitl [HcD]; · iexact HcD
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          labV (Memref.isWhole_whole _) tblV (Memref.isWhole_whole _) outV (Memref.isWhole_whole _)
          idxV (Memref.isWhole_whole _) rowsV (Memref.isWhole_whole _) cc0_scratch2 cc0_scratch3 cc0_scoped0 cc0_scoped1) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

end Cert.Proof.TileBits

end
-- ==== Proof.LaunchBits.lean ====
/-
  The launch of the embedding lookup: how the call's arrays split among the sixteen tasks and come back, the
  TensorCore's program around the call, and the run of the whole program.

  The labels and the result split by rows, 256 to a task; the table is read by every task, so each gets a read share of
  all of it.  Each task hands its rows of the result back holding the lookup there; rows of different tasks are
  disjoint and together are the whole array, so the result comes back holding the lookup everywhere.  The TensorCore
  does nothing but make the call: the two unused arguments never leave it.
-/
import proofs.«208054_g70884140253208_cont_9to1_m_1136_23_alg».proof.Proof.TileBits

noncomputable section

namespace Cert.Proof.TileBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The rows split and join -/

theorem labRowSet_eq (i : Fin 16) : labRowSet i = (lrow i).set := by
  show ((View.whole (main_arg2_scv : Ref sig .scVector)).slice (lrow i)).set = _
  rw [View.set_slice]; exact Finset.map_refl
theorem outRowSet_eq (i : Fin 16) : outRowSet i = (orow i).set := by
  show ((View.whole (main_v0_scv : Ref sig .scVector)).slice (orow i)).set = _
  rw [View.set_slice]; exact Finset.map_refl
theorem lrows_disjoint : ∀ i ∈ (Finset.univ : Finset (Fin 16)), ∀ j ∈ (Finset.univ : Finset (Fin 16)), i ≠ j → Disjoint (labRowSet i) (labRowSet j) :=
  fun i _ j _ h => by rw [labRowSet_eq, labRowSet_eq]; exact Rect.part_disjoint ldiv h
theorem orows_disjoint : ∀ i ∈ (Finset.univ : Finset (Fin 16)), ∀ j ∈ (Finset.univ : Finset (Fin 16)), i ≠ j → Disjoint (outRowSet i) (outRowSet j) :=
  fun i _ j _ h => by rw [outRowSet_eq, outRowSet_eq]; exact Rect.part_disjoint odiv h
theorem lrows_cover : (Finset.univ : Finset (Fin 16)).biUnion labRowSet = Finset.univ :=
  (Finset.biUnion_congr rfl fun i _ => labRowSet_eq i).trans (Rect.biUnion_part ldiv)
theorem orows_cover : (Finset.univ : Finset (Fin 16)).biUnion outRowSet = Finset.univ :=
  (Finset.biUnion_congr rfl fun i _ => outRowSet_eq i).trans (Rect.biUnion_part odiv)

theorem labPts_rows (d : Dev nD) (f : Buf (Elt F) (labLoc d)) :
    (labLoc d ↦{fullShare} f : sProp 𝕄) = bigSep Finset.univ fun i : Fin 16 => labLoc d ↦[labRowSet i]{fullShare} f := by
  rw [← pointsTo_biUnion Finset.univ (ℓ := labLoc d) labRowSet lrows_disjoint, lrows_cover]; try rfl
theorem outPts_rows (d : Dev nD) (f : Buf (Elt F) (outLoc d)) :
    (outLoc d ↦{fullShare} f : sProp 𝕄) = bigSep Finset.univ fun i : Fin 16 => outLoc d ↦[outRowSet i]{fullShare} f := by
  rw [← pointsTo_biUnion Finset.univ (ℓ := outLoc d) outRowSet orows_disjoint, orows_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- One task's rows of the result, holding a function that is the lookup there, hold the lookup. -/
theorem outRow_lookup (d : Dev nD) (i : Fin 16) :
    (iprop(∃ f, ⌜RowsOK m d i f⌝ ∗ outRowPts d i f) : sProp 𝕄)
      ⊢ outRowPts d i (Cert.Spec.lookup (m (tblLoc d)) (m (labLoc d))) := by
  iintro ⟨%f, %hf, H⟩
  iapply (Entails.of_eq (pointsTo_congr (ℓ := outLoc d) (q := fullShare) hf)); iexact H

/-- The tasks' rows of the result, each holding the lookup on its rows, are the result holding the lookup. -/
theorem outRows_join (d : Dev nD) :
    (bigSep Finset.univ fun i : Fin 16 => iprop(∃ f, ⌜RowsOK m d i f⌝ ∗ outRowPts d i f))
      ⊢ (outPts d (Cert.Spec.lookup (m (tblLoc d)) (m (labLoc d))) : sProp 𝕄) := by
  unfold outPts
  rw [outPts_rows]
  exact bigSep_mono fun i _ => outRow_lookup m d i

theorem vecSplit : (K (F := F)).VecSplit' (P m) 0 := by
  intro d c
  show iprop(labPts m d ∗ tblPts m d ∗ outPts d (m (outLoc d))) ⊢ |={Set.univ}=> iprop(
      (bigSep Finset.univ fun i : Fin ((K (F := F)).nSub 0) =>
        iprop(labRowPts m d (Fin.cast nSub_zero i) ∗ tblShPts m d (Fin.cast nSub_zero i) ∗ outRowPts d (Fin.cast nSub_zero i) (m (outLoc d))))
      ∗ ((bigSep Finset.univ fun i : Fin ((K (F := F)).nSub 0) =>
          iprop(labRowPts m d (Fin.cast nSub_zero i) ∗ tblShPts m d (Fin.cast nSub_zero i)
            ∗ ∃ f, ⌜RowsOK m d (Fin.cast nSub_zero i) f⌝ ∗ outRowPts d (Fin.cast nSub_zero i) f))
          -∗ iprop(labPts m d ∗ tblPts m d ∗ outPts d (Cert.Spec.lookup (m (tblLoc d)) (m (labLoc d))))))
  rw [bigSep_tasks (F := F) (fun i => iprop(labRowPts m d i ∗ tblShPts m d i ∗ outRowPts d i (m (outLoc d)))),
    bigSep_tasks (F := F) (fun i => iprop(labRowPts m d i ∗ tblShPts m d i ∗ ∃ f, ⌜RowsOK m d i f⌝ ∗ outRowPts d i f)),
    bigSep_sep', bigSep_sep', bigSep_sep', bigSep_sep']
  iintro ⟨Hl, Ht, Ho⟩
  ihave Hl' := (Entails.of_eq (labPts_rows (F := F) d _)) $$ Hl
  ihave Ho' := (Entails.of_eq (outPts_rows (F := F) d _)) $$ Ho
  ihave Ht' := (Transfers.pointsTo_toks_split (ℓ := tblLoc d) (S := Finset.univ) (f := m (tblLoc d)) fullShare 16) $$ Ht
  icases Ht' with ⟨Htr, Htt⟩
  imodintro
  isplitl [Hl' Htt Ho']
  · isplitl [Hl']; · iexact Hl'
    isplitl [Htt]; · iexact Htt
    iexact Ho'
  iintro ⟨Hl, Ht, Ho⟩
  isplitl [Hl]; · iapply (Entails.of_eq (labPts_rows (F := F) d _).symm); iexact Hl
  isplitl [Htr Ht]
  · iapply (Transfers.pointsTo_toks_join (ℓ := tblLoc d) (S := Finset.univ) (f := m (tblLoc d)) fullShare 16)
    isplitl [Htr]; · iexact Htr
    iexact Ht
  iapply (outRows_join m d); iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0Loc (d : Dev nD) : Loc nD τ sig := (SparseCore.T d).loc main_arg0
abbrev a1Loc (d : Dev nD) : Loc nD τ sig := (SparseCore.T d).loc main_arg1

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (labLoc d ↦{fullShare} W main_arg2) ∗ (tblLoc d ↦{fullShare} W main_arg3) ∗ outLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c) = iprop(labPts m d ∗ tblPts m d ∗ outPts d (m (outLoc d))) :=
  bigSep_univ_of_subsingleton (0 : Fin 1)
theorem dn0_eq (d : Dev nD) : (bigSep Finset.univ fun c : Fin ((K (F := F)).nCore 0) => (P m).dn 0 d c)
    = iprop(labPts m d ∗ tblPts m d ∗ outPts d (Cert.Spec.lookup (m (tblLoc d)) (m (labLoc d)))) :=
  bigSep_univ_of_subsingleton (0 : Fin 1)

/-- What @main leaves the claim: the four arguments at their launch contents, the result at the lookup. -/
abbrev FIN (d : Dev nD) : sProp 𝕄 :=
  iprop((a0Loc d ↦{fullShare} m (a0Loc d)) ∗ (a1Loc d ↦{fullShare} m (a1Loc d)) ∗ labPts m d ∗ tblPts m d
    ∗ outPts d (Cert.Spec.lookup (m (tblLoc d)) (m (labLoc d))))

/-- @main on device d's TensorCore: the one call, from the labels, the table and the result's buffer. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨H0, H1, Hl, Ht, Ho⟩, -, -⟩, -⟩
  iapply ((K (F := F)).wp_run (D (F := F)) 𝒱 (EH := EH) (P := P m) κ d 0) $$ [Hst Hl Ht Ho H0 H1]
  isplitr; · iexact Hctx
  isplitl [Hst]; · iexact Hst
  isplitl [Hl Ht Ho]
  · rw [st0_eq]
    isplitl [Hl]; · iexact Hl
    isplitl [Ht]; · iexact Ht
    iexact Ho
  iintro ⟨Hst, Hdn⟩
  ihave Hdn' := (Entails.of_eq (dn0_eq m d)) $$ Hdn
  icases Hdn' with ⟨Hl, Ht, Ho⟩
  imodintro
  isplitl [Hst]; · iexact Hst
  isplitl [H0]; · iexact H0
  isplitl [H1]; · iexact H1
  isplitl [Hl]; · iexact Hl
  isplitl [Ht]; · iexact Ht
  iexact Ho

def fq (d : Dev nD) (s' : Phys nD τ sig (Elt F)) : Prop :=
  s'.mem.mem (outLoc d) = Cert.Spec.lookup (m (tblLoc d)) (m (labLoc d)) ∧ s'.mem.mem (a0Loc d) = m (a0Loc d) ∧ s'.mem.mem (a1Loc d) = m (a1Loc d)
    ∧ s'.mem.mem (labLoc d) = m (labLoc d) ∧ s'.mem.mem (tblLoc d) = m (tblLoc d)

theorem hfin (d : Dev nD) (s' : Phys nD τ sig (Elt F)) : iprop(FIN m d ∗ SI s') ⊢ (⌜fq m d s'⌝ : sProp 𝕄) := by
  iintro ⟨⟨H0, H1, Hl, Ht, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := labLoc d) (I := Finset.univ) (q := fullShare) (f := m (labLoc d)))) $$ [HSI Hl]
  · isplitl [HSI] <;> iassumption
  icases H with ⟨%h2, HSI, -⟩
  ihave H := (persistent_entails_right (SI_pointsTo_agree (st := s') (ℓ := tblLoc d) (I := Finset.univ) (q := fullShare) (f := m (tblLoc d)))) $$ [HSI Ht]
  · isplitl [HSI] <;> iassumption
  icases H with ⟨%h3, HSI, -⟩
  ihave H := (SI_pointsTo_agree (st := s') (ℓ := outLoc d) (I := Finset.univ) (q := fullShare) (f := Cert.Spec.lookup (m (tblLoc d)) (m (labLoc d)))) $$ [HSI Ho]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

/-! ## The program's run -/

/-- The result is the lookup of the launch's table at the launch's labels, and the four arguments end unchanged. -/
def QC : PUnit × MemSt nD τ sig (Elt F) → Prop := fun r => ∀ c : Dev nD,
  r.2.mem (outLoc c) = Cert.Spec.lookup (m (tblLoc c)) (m (labLoc c)) ∧ r.2.mem (a0Loc c) = m (a0Loc c) ∧ r.2.mem (a1Loc c) = m (a1Loc c)
    ∧ r.2.mem (labLoc c) = m (labLoc c) ∧ r.2.mem (tblLoc c) = m (tblLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.TileBits

end
-- ==== Proof.TileIdeal.lean ====
/-
  One tile's task of the embedding lookup, and the obligation the launch asks of it.

  Tile s of SparseCore 0 owns rows 256 s .. 256 s + 255 of the labels and of the result.  It fetches its 256 labels
  into its index scratch, starts two indexed copies out of the table — rows named by labels 0..127 into the upper half
  of its row scratch on one semaphore, rows named by labels 128..255 into the lower half on another —, waits for both,
  and copies the row scratch out to its rows of the result.  Nothing touches the index scratch or the row scratch
  between the first issue and the last wait, and the two copies land on disjoint halves, so whatever order the engine
  serves them in the scratch ends at: row r of the scratch is the table's row named by label 256 s + r.
  Each label is a row number of the table (the certificate's precondition), which is what lets every entry of both
  index lists be served.
-/
import proofs.«208054_g70884140253208_cont_9to1_m_1136_23_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208054_g70884140253208_cont_9to1_m_1136_23_alg».proof.Proof.Gen.KernelIdeal
import proofs.«208054_g70884140253208_cont_9to1_m_1136_23_alg».proof.Proof.Gen.KernelIdeal.Skeleton
import proofs.«208054_g70884140253208_cont_9to1_m_1136_23_alg».proof.Proof.Spec

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev labLoc (d : Dev nD) : Loc nD τ sig := (SparseCore.T d).loc main_arg2
abbrev tblLoc (d : Dev nD) : Loc nD τ sig := (SparseCore.T d).loc main_arg3
abbrev outLoc (d : Dev nD) : Loc nD τ sig := (SparseCore.T d).loc main_v0

local notation "labV" => (Memref.whole Cert.KernelIdeal.main_arg2_scv : Memref Cert.KernelIdeal.sig Kind.scVector Space.hbm Cert.KernelIdeal.S4096 EltTy.i32)
local notation "tblV" => (Memref.whole Cert.KernelIdeal.main_arg3_scv : Memref Cert.KernelIdeal.sig Kind.scVector Space.hbm Cert.KernelIdeal.S100000x128 EltTy.f32)
local notation "outV" => (Memref.whole Cert.KernelIdeal.main_v0_scv : Memref Cert.KernelIdeal.sig Kind.scVector Space.hbm Cert.KernelIdeal.S4096x128 EltTy.f32)
local notation "idxV" => (Memref.whole Cert.KernelIdeal.cc0_scratch0 : Memref Cert.KernelIdeal.sig Kind.scVector Space.vmem Cert.KernelIdeal.S256 EltTy.i32)
local notation "rowsV" => (Memref.whole Cert.KernelIdeal.cc0_scratch1 : Memref Cert.KernelIdeal.sig Kind.scVector Space.vmem Cert.KernelIdeal.S256x128 EltTy.f32)

theorem ldiv : 16 ∣ S4096.size 0 := ⟨256, rfl⟩
theorem odiv : 16 ∣ S4096x128.size 0 := ⟨256, rfl⟩
/-- Tile i's 256 labels and its 256 rows of the result. -/
abbrev lrow (i : Fin 16) : Rect S4096 := Rect.part (s := S4096) (a₀ := 0) ldiv i
abbrev orow (i : Fin 16) : Rect S4096x128 := Rect.part (s := S4096x128) (a₀ := 0) odiv i
abbrev labRowSet (i : Fin 16) : Finset S4096.Idx := ((labV).view.slice (lrow i)).set
abbrev outRowSet (i : Fin 16) : Finset S4096x128.Idx := ((outV).view.slice (orow i)).set

/-- Tile i's read share of the table. -/
abbrev xq (i : Fin 16) : PosShare TreeShare := Transfers.shareTok fullShare 16 i

/-- What the proof asks of the launch memory: every label is a row number of the table. -/
def PreOK : Prop := ∀ (d : Dev nD) (j : S4096.Idx), 0 ≤ (m (labLoc d) j).toInt ∧ (m (labLoc d) j).toInt ≤ 99999

/-- What a tile leaves in its rows of the result: there the result is the lookup. -/
def RowsOK (d : Dev nD) (i : Fin 16) (f : Buf (Elt F) (outLoc d)) : Prop :=
  ∀ x ∈ outRowSet i, f x = Cert.Spec.lookup (m (tblLoc d)) (m (labLoc d)) x

variable [FloatOps F]

/-! ## What the handshakes carry -/

abbrev labPts (d : Dev nD) : sProp 𝕄 := labLoc d ↦{fullShare} m (labLoc d)
abbrev tblPts (d : Dev nD) : sProp 𝕄 := tblLoc d ↦{fullShare} m (tblLoc d)
abbrev outPts (d : Dev nD) (f : Buf (Elt F) (outLoc d)) : sProp 𝕄 := outLoc d ↦{fullShare} f
abbrev labRowPts (d : Dev nD) (i : Fin 16) : sProp 𝕄 := labLoc d ↦[labRowSet i]{fullShare} m (labLoc d)
abbrev tblShPts (d : Dev nD) (i : Fin 16) : sProp 𝕄 := tblLoc d ↦{xq i} m (tblLoc d)
abbrev outRowPts (d : Dev nD) (i : Fin 16) (f : Buf (Elt F) (outLoc d)) : sProp 𝕄 := outLoc d ↦[outRowSet i]{fullShare} f

/-- The one call takes the labels, the table and the result whole; each task its labels, its share of the table and its
    rows of the result, and brings them back, the result's rows at the lookup. -/
def P : (K (F := F)).Pay (nD := nD) (Val := Elt F) (Name := ℕ) (U := UU) where
  st := fun q d _ => match q with | 0 => iprop(labPts m d ∗ tblPts m d ∗ outPts d (m (outLoc d)))
  dn := fun q d _ => match q with | 0 => iprop(labPts m d ∗ tblPts m d ∗ outPts d (Cert.Spec.lookup (m (tblLoc d)) (m (labLoc d))))
  go := fun q d _ i => match q with
    | 0 => iprop(labRowPts m d (Fin.cast nSub_zero i) ∗ tblShPts m d (Fin.cast nSub_zero i) ∗ outRowPts d (Fin.cast nSub_zero i) (m (outLoc d)))
  td := fun q d _ i => match q with
    | 0 => iprop(labRowPts m d (Fin.cast nSub_zero i) ∗ tblShPts m d (Fin.cast nSub_zero i)
        ∗ ∃ f, ⌜RowsOK m d (Fin.cast nSub_zero i) f⌝ ∗ outRowPts d (Fin.cast nSub_zero i) f)
  x := fun _ _ => iprop(emp)

instance P_storable : (P (F := F) m).IsStorable where
  st q d _ := match q with
    | 0 => (inferInstance : BI.Storable (upEmb : UEmb _ 𝕄) iprop(labPts m d ∗ tblPts m d ∗ outPts d (m (outLoc d))))
  dn q d _ := match q with
    | 0 => (inferInstance : BI.Storable (upEmb : UEmb _ 𝕄) iprop(labPts m d ∗ tblPts m d ∗ outPts d (Cert.Spec.lookup (m (tblLoc d)) (m (labLoc d)))))
  go q d _ i := match q with
    | 0 => (inferInstance : BI.Storable (upEmb : UEmb _ 𝕄)
      iprop(labRowPts m d (Fin.cast nSub_zero i) ∗ tblShPts m d (Fin.cast nSub_zero i) ∗ outRowPts d (Fin.cast nSub_zero i) (m (outLoc d))))
  td q d _ i := match q with
    | 0 => (inferInstance : BI.Storable (upEmb : UEmb _ 𝕄)
      iprop(labRowPts m d (Fin.cast nSub_zero i) ∗ tblShPts m d (Fin.cast nSub_zero i)
        ∗ ∃ f, ⌜RowsOK m d (Fin.cast nSub_zero i) f⌝ ∗ outRowPts d (Fin.cast nSub_zero i) f))

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
omit [FloatOps F] in
theorem bound_one : grid0.bound 1 = 16 := rfl
abbrev jL (L : grid0.Coords) : Fin 16 := Fin.cast bound_one (L 1)

abbrev lrowK (L : grid0.Coords) : Rect S4096 := Rect.unit (s := S4096) (k0_off1 L) S256.size (k0_off1_inb L)
abbrev orowK (L : grid0.Coords) : Rect S4096x128 := Rect.unit (s := S4096x128) (k0_off2 L) S256x128.size (k0_off2_inb L)
/-- The tile's labels and its rows of the result, as the task addresses them. -/
abbrev labRowK (L : grid0.Coords) : Memref sig .scVector .hbm S256 .i32 := (labV).slice (lrowK L) (fun _ => rfl)
abbrev outRowK (L : grid0.Coords) : Memref sig .scVector .hbm S256x128 .f32 := (outV).slice (orowK L) (fun _ => rfl)

/-- The task's four DMA semaphores at zero. -/
abbrev cells0 (d : Dev nD) (L : grid0.Coords) : sProp 𝕄 :=
  iprop(semVal (VT d L, SemLoc.dma cc0_scratch2.sem) 0 ∗ semVal (VT d L, SemLoc.dma cc0_scratch3.sem) 0
    ∗ semVal (VT d L, SemLoc.dma cc0_scoped0.sem) 0 ∗ semVal (VT d L, SemLoc.dma cc0_scoped1.sem) 0)

/-! ### The pieces the launch deals, in the body's spelling -/

omit [FloatOps F] in
theorem lrowK_eq : lrowK L = lrow (jL L) := by
  have h0 : (L 0).val = 0 := Nat.lt_one_iff.mp (L 0).isLt
  unfold lrowK lrow Rect.part Rect.block
  congr 1 <;> funext a
  · rw [k0_off1_eq]
    match a with
    | 0 => simp [Shape.partIx, Shape.partSize]; omega
  · match a with
    | 0 => simp [Shape.partSize]
omit [FloatOps F] in
theorem orowK_eq : orowK L = orow (jL L) := by
  have h0 : (L 0).val = 0 := Nat.lt_one_iff.mp (L 0).isLt
  unfold orowK orow Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_labRowK : (labRowK L).view.set = labRowSet (jL L) := by
  show ((labV).view.slice (lrowK L)).set = ((labV).view.slice (lrow (jL L))).set
  exact lrowK_eq L ▸ rfl
omit [FloatOps F] in
theorem set_outRowK : (outRowK L).view.set = outRowSet (jL L) := by
  show ((outV).view.slice (orowK L)).set = ((outV).view.slice (orow (jL L))).set
  exact orowK_eq L ▸ rfl

omit [FloatOps F] in
theorem pts_labRowK (f : Buf (Elt F) (labLoc d)) :
    ((labRowK L).view.loc (VT d L) ↦[(labRowK L).view.set]{fullShare} f : sProp 𝕄) = labLoc d ↦[labRowSet (jL L)]{fullShare} f := by
  rw [set_labRowK]
omit [FloatOps F] in
theorem pts_outRowK (f : Buf (Elt F) (outLoc d)) :
    ((outRowK L).view.loc (VT d L) ↦[(outRowK L).view.set]{fullShare} f : sProp 𝕄) = outLoc d ↦[outRowSet (jL L)]{fullShare} f := by
  rw [set_outRowK]
omit [FloatOps F] in
theorem pts_tblV (q : PosShare TreeShare) (f : Buf (Elt F) (tblLoc d)) :
    ((tblV).view.loc (VT d L) ↦{q} f : sProp 𝕄) = tblLoc d ↦{q} f := rfl
omit [FloatOps F] in
theorem pts_idxV (f : Buf (Elt F) ((VT d L).loc cc0_scratch0)) :
    ((idxV).view.loc (VT d L) ↦[(idxV).view.set]{fullShare} f : sProp 𝕄) = (VT d L).loc cc0_scratch0 ↦{fullShare} f := by
  simp only [Memref.view_whole, View.set_whole]
omit [FloatOps F] in
theorem pts_rowsV (f : Buf (Elt F) ((VT d L).loc cc0_scratch1)) :
    ((rowsV).view.loc (VT d L) ↦[(rowsV).view.set]{fullShare} f : sProp 𝕄) = (VT d L).loc cc0_scratch1 ↦{fullShare} f := by
  simp only [Memref.view_whole, View.set_whole]

/-- A label in range, read as an unsigned word, is below the table's row count. -/
theorem toNat_lt_of_range (w : BitVec 32) (h : 0 ≤ w.toInt ∧ w.toInt ≤ 99999) : w.toNat < 100000 := by
  have := h.1; have := h.2
  rw [BitVec.toInt_eq_toNat_cond] at *
  split at * <;> omega

/-- What the label fetch lands in the index scratch: the tile's 256 labels. -/
abbrev PAY : S256.Idx → Elt F .i32 := ReadAs.same.apply ((labRowK L).view.read (Elt F) (m (labLoc d)))

omit [FloatOps F] in
theorem PAY_apply (x : S256.Idx) : PAY m d L x = m (labLoc d) ((labRowK L).view.emb x) :=
  (View.read_apply _ _).trans (cast_eq _ _)

omit [FloatOps F] in
/-- Every word of a 128-word window of the index scratch, after the fetch, is one of the tile's labels: a row number of
    the table.  For any window offset and any prior contents of the scratch. -/
theorem inb_of_pre (hpre : PreOK m) (g : Buf (Elt F) ((idxV).view.loc (VT d L)))
    (pay : S256.Idx → Elt F .i32) (hpay : pay = PAY m d L) (off : Fin 1 → Nat)
    (hk : ∀ a, off a + S128.size a ≤ S256.size a) :
    ∀ x, (View.read (Elt F) ((idxV).slice (Rect.unit (s := S256) off S128.size hk) (fun _ => rfl)).view
        ((idxV).view.writes (Elt F) g [⟨Rect.whole cc0_scratch0.ty.shape, pay⟩]) x).toNat < 100000 := by
  subst hpay; intro x
  have e : View.read (Elt F) ((idxV).slice (Rect.unit (s := S256) off S128.size hk) (fun _ => rfl)).view
        ((idxV).view.writes (Elt F) g [⟨Rect.whole cc0_scratch0.ty.shape, PAY m d L⟩]) x
      = View.read (Elt F) (idxV).view ((idxV).view.writes (Elt F) g [⟨Rect.whole cc0_scratch0.ty.shape, PAY m d L⟩])
          ((Rect.unit (s := S256) off S128.size hk).emb x) := by
    rw [View.read_apply, View.read_apply]; rfl
  rw [e, View.read_writes_whole, PAY_apply]
  exact toNat_lt_of_range _ (hpre d _)

/-! ### What the task leaves in its row scratch and in its rows of the result -/

/-- Label k of the tile: label 256 s + k of the array. -/
abbrev labAt (k : Fin 256) : BitVec 32 := m (labLoc d) ((labRowK L).view.emb (ValueIdx.ix1 k))

/-- The table row that the tile's label k names (a row number, by the precondition). -/
def rowN (hpre : PreOK m) (k : Fin 256) : Fin 100000 := ⟨(labAt m d L k).toNat, toNat_lt_of_range _ (hpre d _)⟩

/-- What the row scratch ends at: row r is the table's row named by the tile's label r. -/
def scrG (hpre : PreOK m) : S256x128.Idx → Elt F .f32 :=
  fun y => m (tblLoc d) (ValueIdx.ix2 (rowN m d L hpre ⟨(y 0).val, (y 0).isLt⟩) (⟨(y 1).val, (y 1).isLt⟩ : Fin 128))

omit [FloatOps F] in
/-- One indexed copy's payload, entry by entry: the copy of the 128 rows named by the window of the index scratch at
    offset off writes, through the window of the row scratch at the same offset, the values of scrG. -/
theorem gather_piece (hpre : PreOK m) (g : Buf (Elt F) ((idxV).view.loc (VT d L))) (off : Fin 1 → Nat)
    (hk : ∀ a, off a + S128.size a ≤ S256.size a)
    (hk2 : ∀ a, (![off 0, 0] : Fin 2 → Nat) a + S128x128.size a ≤ S256x128.size a)
    (hn : S128.numel = S128x128.size gathers_S100000x128_S128x128.axis')
    (hin : ∀ x, (View.read (Elt F) ((idxV).slice (Rect.unit (s := S256) off S128.size hk) (fun _ => rfl)).view
        ((idxV).view.writes (Elt F) g [⟨Rect.whole cc0_scratch0.ty.shape, PAY m d L⟩]) x).toNat
          < S100000x128.size gathers_S100000x128_S128x128.axis)
    (x : S128x128.Idx) :
    SparseCore.gatherPayload gathers_S100000x128_S128x128
      (View.read (Elt F) ((tblV).slice (Rect.unit (s := S100000x128) ![0, 0] S100000x128.size inb_S100000x128_S100000x128_0_0) (fun _ => rfl)).view (m (tblLoc d)))
      (SparseCore.rows (View.read (Elt F) ((idxV).slice (Rect.unit (s := S256) off S128.size hk) (fun _ => rfl)).view
        ((idxV).view.writes (Elt F) g [⟨Rect.whole cc0_scratch0.ty.shape, PAY m d L⟩])) hn hin) x
    = scrG m d L hpre ((Rect.unit (s := S256x128) ![off 0, 0] S128x128.size hk2).emb x) := by
  -- the word the stream reads for row x 0 of the window is the tile's label off + x 0
  have hword : ∀ z : S128.Idx, View.read (Elt F) ((idxV).slice (Rect.unit (s := S256) off S128.size hk) (fun _ => rfl)).view
        ((idxV).view.writes (Elt F) g [⟨Rect.whole cc0_scratch0.ty.shape, PAY m d L⟩]) z
      = m (labLoc d) ((labRowK L).view.emb ((Rect.unit (s := S256) off S128.size hk).emb z)) := by
    intro z
    have e : View.read (Elt F) ((idxV).slice (Rect.unit (s := S256) off S128.size hk) (fun _ => rfl)).view
          ((idxV).view.writes (Elt F) g [⟨Rect.whole cc0_scratch0.ty.shape, PAY m d L⟩]) z
        = View.read (Elt F) (idxV).view ((idxV).view.writes (Elt F) g [⟨Rect.whole cc0_scratch0.ty.shape, PAY m d L⟩])
            ((Rect.unit (s := S256) off S128.size hk).emb z) := by
      rw [View.read_apply, View.read_apply]; rfl
    rw [e, View.read_writes_whole, PAY_apply]
  unfold SparseCore.gatherPayload scrG
  rw [View.read_apply]
  refine (cast_eq _ _).trans ?_
  refine congrArg (m (tblLoc d)) (funext fun b => Fin.ext ?_)
  match b with
  | ⟨0, hb0⟩ =>
    show (![0, 0] : Fin 2 → Nat) 0 + 1 * (gathers_S100000x128_S128x128.idx _ x gathers_S100000x128_S128x128.axis).val
      = (labAt m d L ⟨((Rect.unit (s := S256x128) ![off 0, 0] S128x128.size hk2).emb x 0).val, _⟩).toNat
    rw [Shape.Gathers.idx_axis]
    dsimp only [SparseCore.rows]
    rw [hword]
    have hz : (Rect.unit (s := S256) off S128.size hk).emb
          (S128.rowMajor.symm ((x gathers_S100000x128_S128x128.axis').cast hn.symm))
        = ValueIdx.ix1 (⟨((Rect.unit (s := S256x128) ![off 0, 0] S128x128.size hk2).emb x 0).val,
            ((Rect.unit (s := S256x128) ![off 0, 0] S128x128.size hk2).emb x 0).isLt⟩ : Fin 256) := by
      funext a; refine Fin.ext ?_
      match a with
      | ⟨0, _⟩ =>
        show off 0 + 1 * ((S128.rowMajor.symm ((x gathers_S100000x128_S128x128.axis').cast hn.symm)) 0).val
          = (![off 0, 0] : Fin 2 → Nat) 0 + 1 * (x 0).val
        rw [← Shape.rowMajor_val_one, Equiv.apply_symm_apply]; rfl
    show 0 + 1 * _ = _
    rw [Nat.zero_add, Nat.one_mul]
    exact congrArg (fun i => (m (labLoc d) ((labRowK L).view.emb i)).toNat) hz
  | ⟨1, hb1⟩ =>
    show (![0, 0] : Fin 2 → Nat) 1 + 1 * (gathers_S100000x128_S128x128.idx _ x ⟨1, hb1⟩).val
      = ((Rect.unit (s := S256x128) ![off 0, 0] S128x128.size hk2).emb x 1).val
    rw [Shape.Gathers.idx_of_ne _ _ _ _ (show (1 : ℕ) ≠ 0 by decide)]
    show 0 + 1 * (x 1).val = 0 + 1 * (x 1).val
    rfl

omit [FloatOps F] in
/-- The row scratch after both copies reads, everywhere, as scrG: rows 0..127 through the first window, rows 128..255
    through the second, whatever the scratch held before. -/
theorem scr_read (hpre : PreOK m) (g : Buf (Elt F) ((idxV).view.loc (VT d L))) (t0 : Buf (Elt F) ((rowsV).view.loc (VT d L)))
    (hn : S128.numel = S128x128.size gathers_S100000x128_S128x128.axis')
    (hin0 : ∀ x, (View.read (Elt F) ((idxV).slice (Rect.unit (s := S256) ![0] S128.size inb_S256_S128_0) (fun _ => rfl)).view
        ((idxV).view.writes (Elt F) g [⟨Rect.whole cc0_scratch0.ty.shape, PAY m d L⟩]) x).toNat
          < S100000x128.size gathers_S100000x128_S128x128.axis)
    (hin1 : ∀ x, (View.read (Elt F) ((idxV).slice (Rect.unit (s := S256) ![128] S128.size inb_S256_S128_128) (fun _ => rfl)).view
        ((idxV).view.writes (Elt F) g [⟨Rect.whole cc0_scratch0.ty.shape, PAY m d L⟩]) x).toNat
          < S100000x128.size gathers_S100000x128_S128x128.axis)
    (y : S256x128.Idx) :
    View.read (Elt F) (rowsV).view
      ((rowsV).view.writes (Elt F) t0
        [⟨Rect.unit (s := S256x128) ![128, 0] S128x128.size inb_S256x128_S128x128_128_0,
            SparseCore.gatherPayload gathers_S100000x128_S128x128
              (View.read (Elt F) ((tblV).slice (Rect.unit (s := S100000x128) ![0, 0] S100000x128.size inb_S100000x128_S100000x128_0_0) (fun _ => rfl)).view (m (tblLoc d)))
              (SparseCore.rows (View.read (Elt F) ((idxV).slice (Rect.unit (s := S256) ![128] S128.size inb_S256_S128_128) (fun _ => rfl)).view
                ((idxV).view.writes (Elt F) g [⟨Rect.whole cc0_scratch0.ty.shape, PAY m d L⟩])) hn hin1)⟩,
          ⟨Rect.unit (s := S256x128) ![0, 0] S128x128.size inb_S256x128_S128x128_0_0,
            SparseCore.gatherPayload gathers_S100000x128_S128x128
              (View.read (Elt F) ((tblV).slice (Rect.unit (s := S100000x128) ![0, 0] S100000x128.size inb_S100000x128_S100000x128_0_0) (fun _ => rfl)).view (m (tblLoc d)))
              (SparseCore.rows (View.read (Elt F) ((idxV).slice (Rect.unit (s := S256) ![0] S128.size inb_S256_S128_0) (fun _ => rfl)).view
                ((idxV).view.writes (Elt F) g [⟨Rect.whole cc0_scratch0.ty.shape, PAY m d L⟩])) hn hin0)⟩]) y
      = scrG m d L hpre y := by
  refine View.read_writes_apply_of_pieces _ _ (scrG m d L hpre) _ ?_ y ?_
  · intro p hp
    rcases List.mem_cons.mp hp with rfl | hp
    · exact fun x => gather_piece m d L hpre g ![128] inb_S256_S128_128 inb_S256x128_S128x128_128_0 hn hin1 x
    · obtain rfl := List.mem_singleton.mp hp
      exact fun x => gather_piece m d L hpre g ![0] inb_S256_S128_0 inb_S256x128_S128x128_0_0 hn hin0 x
  · have h0 : (y 0).val < 256 := (y 0).isLt
    have h1 : (y 1).val < 128 := (y 1).isLt
    by_cases h : (y 0).val < 128
    · refine ⟨_, List.mem_cons_of_mem _ (List.mem_singleton.mpr rfl), ?_⟩
      rw [Rect.mem_set_unit]
      intro a
      match a with
      | ⟨0, _⟩ => show 0 ≤ (y 0).val ∧ (y 0).val < 0 + 128; omega
      | ⟨1, _⟩ => show 0 ≤ (y 1).val ∧ (y 1).val < 0 + 128; omega
    · refine ⟨_, List.mem_cons_self .., ?_⟩
      rw [Rect.mem_set_unit]
      intro a
      match a with
      | ⟨0, _⟩ => show 128 ≤ (y 0).val ∧ (y 0).val < 128 + 128; omega
      | ⟨1, _⟩ => show 0 ≤ (y 1).val ∧ (y 1).val < 0 + 128; omega

omit [FloatOps F] in
/-- The tile's rows of the result after the copy-out: there the result is the lookup. -/
theorem rows_ok (hpre : PreOK m) (pay : S256x128.Idx → Elt F .f32) (hpay : pay = scrG m d L hpre) :
    RowsOK m d (jL L) ((outRowK L).view.writes (Elt F) (m (outLoc d)) [⟨Rect.whole S256x128, pay⟩]) := by
  subst hpay
  intro x hx
  rw [← set_outRowK] at hx
  obtain ⟨y, rfl⟩ := View.exists_emb_of_mem_set (outRowK L).view hx
  have e1 : ((outRowK L).view.writes (Elt F) (m (outLoc d)) [⟨Rect.whole S256x128, scrG m d L hpre⟩]) ((outRowK L).view.emb y)
      = (outRowK L).view.read (Elt F) ((outRowK L).view.writes (Elt F) (m (outLoc d)) [⟨Rect.whole S256x128, scrG m d L hpre⟩]) y :=
    ((View.read_apply _ _).trans (cast_eq _ _)).symm
  rw [e1, View.read_writes_whole]
  unfold scrG Cert.Spec.lookup
  refine congrArg (m (tblLoc d)) (funext fun b => Fin.ext ?_)
  have hx0 : (((outRowK L).view.emb y) 0).val = 256 * (L 1).val + 256 * (L 0).val + (y 0).val := by
    show k0_off2 L 0 + 1 * (y 0).val = _
    rw [k0_off2_eq]; simp
  have hx1 : (((outRowK L).view.emb y) 1).val = (y 1).val := by
    show k0_off2 L 1 + 1 * (y 1).val = _
    rw [k0_off2_eq]; simp
  have key : ∀ w : BitVec 32, (0 ≤ w.toInt ∧ w.toInt ≤ 99999) → w.toNat = (Cert.Spec.rowOf w).val := by
    intro w hw
    show w.toNat = min w.toInt.toNat (100000 - 1)
    have := hw.1; have := hw.2
    rw [BitVec.toInt_eq_toNat_cond] at *
    split at * <;> omega
  match b with
  | ⟨0, _⟩ =>
    have hl : m (labLoc d) ((labRowK L).view.emb (ValueIdx.ix1 (⟨(y 0).val, (y 0).isLt⟩ : Fin 256)))
        = m (labLoc d) (ValueIdx.ix1 (n := 4096) (((outRowK L).view.emb y) 0)) := by
      refine congrArg (m (labLoc d)) (funext fun a => Fin.ext ?_)
      match a with
      | ⟨0, _⟩ =>
        show k0_off1 L 0 + 1 * (y 0).val = (((outRowK L).view.emb y) 0).val
        rw [hx0, k0_off1_eq]; simp
    exact (congrArg BitVec.toNat hl).trans (key _ (hpre d _))
  | ⟨1, _⟩ => exact hx1.symm

/-- The task's body run from the pieces the launch dealt it, in the body's spelling. -/
theorem tile_run (hpre : PreOK m) (O : CellTallies nD τ sig (HIx 1)) (W : Waits sig (HIx 1))
    (g0 : Buf (Elt F) ((idxV).view.loc (VT d L))) (t0 : Buf (Elt F) ((rowsV).view.loc (VT d L))) :
    (iprop(Transfers.MayWaits (VT d L) (default : HIx 1) O
        ∗ ((labRowK L).view.loc (VT d L) ↦[(labRowK L).view.set]{fullShare} m (labLoc d))
        ∗ ((tblV).view.loc (VT d L) ↦{Transfers.shareTokN (xq (jL L)) 0} m (tblLoc d))
        ∗ ((tblV).view.loc (VT d L) ↦{Transfers.shareTokN (xq (jL L)) 1} m (tblLoc d))
        ∗ ((outRowK L).view.loc (VT d L) ↦[(outRowK L).view.set]{fullShare} m (outLoc d))
        ∗ ((idxV).view.loc (VT d L) ↦[(idxV).view.set]{fullShare} g0)
        ∗ ((rowsV).view.loc (VT d L) ↦[(rowsV).view.set]{fullShare} t0)
        ∗ cells0 d L
        ∗ owes (VT d L) O W) : sProp 𝕄)
      ⊢ wp frame (wpE (defs₀ (F := F)) 𝒱₀ (VT d L) none) Set.univ
          (cc0_gather_kernel L labV (Memref.isWhole_whole _) tblV (Memref.isWhole_whole _) outV (Memref.isWhole_whole _)
            idxV (Memref.isWhole_whole _) rowsV (Memref.isWhole_whole _) cc0_scratch2 cc0_scratch3 cc0_scoped0 cc0_scoped1)
          fun _ => iprop(((labRowK L).view.loc (VT d L) ↦[(labRowK L).view.set]{fullShare} m (labLoc d))
            ∗ ((tblV).view.loc (VT d L) ↦{Transfers.shareTokN (xq (jL L)) 0} m (tblLoc d))
            ∗ ((tblV).view.loc (VT d L) ↦{Transfers.shareTokN (xq (jL L)) 1} m (tblLoc d))
            ∗ (∃ f, ⌜RowsOK m d (jL L) f⌝ ∗ (outRowK L).view.loc (VT d L) ↦[(outRowK L).view.set]{fullShare} f)
            ∗ (∃ g, (idxV).view.loc (VT d L) ↦[(idxV).view.set]{fullShare} g)
            ∗ (∃ g, (rowsV).view.loc (VT d L) ↦[(rowsV).view.set]{fullShare} g)
            ∗ cells0 d L
            ∗ ∃ W', owes (VT d L) O W') := by
  iintro ⟨#Hmw, HI, HX0, HX1, HO, HG, HT, ⟨Hc0, Hc1, Hc2, Hc3⟩, HOw⟩
  sl_unfold [cc0_gather_kernel]
  sl_exec
  have hidx0 := fun g => inb_of_pre m d L hpre g (tile_run.sl.dma0 m d L) rfl ![0] inb_S256_S128_0
  have hidx1 := fun g => inb_of_pre m d L hpre g (tile_run.sl.dma0 m d L) rfl ![128] inb_S256_S128_128
  sl_exec
  sl_step
  isplitl [HI]; · iexact HI
  isplitl [HX0]; · iexact HX0
  isplitl [HX1]; · iexact HX1
  isplitl [HO]
  · iexists ((outRowK L).view.writes (Elt F) (m (outLoc d)) [⟨Rect.whole S256x128, tile_run.sl.dma0_1 m d L t0 hidx0 hidx1⟩])
    isplitr
    · ipureintro
      exact rows_ok m d L hpre (tile_run.sl.dma0_1 m d L t0 hidx0 hidx1)
        (funext fun y => scr_read m d L hpre (idxV).view.junk t0 (by decide) (hidx0 (idxV).view.junk) (hidx1 (idxV).view.junk) y)
    · iexact HO
  isplitl [HG]; · iexists _; iexact HG
  isplitl [HT]; · iexists _; iexact HT
  isplitl [Hc0 Hc1 Hc2 Hc3]
  · isplitl [Hc0]; · iexact Hc0
    isplitl [Hc1]; · iexact Hc1
    isplitl [Hc2]; · iexact Hc2
    iexact Hc3
  iexists _; iexact HOw

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)

omit [FloatOps F] in
/-- The task's four DMA semaphores are among the subcore's scoped ones: they are them, and the rest. -/
theorem ownSems0_V :
    (ownSems0 (VT d L) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (VT d L)).erase (cAcell d (cV L) (jV L))).erase (cBcell d (cV L) (jV L))).erase (cCcell d (cV L) (jV L))).erase (cDcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩),
    SparseCore.bigSep_erase' (Finset.mem_erase.mpr ⟨by simp [cCcell, cDcell]; decide, Finset.mem_erase.mpr ⟨by simp [cBcell, cDcell]; decide,
      Finset.mem_erase.mpr ⟨by simp [cAcell, cDcell]; decide,
      (mem_ownCells (g := cDcell d (cV L) (jV L))).mpr ⟨rfl, by show (SemLoc.dma cc0_scoped1.sem : SemLoc sig).isScoped .scVector = true; decide⟩⟩⟩⟩)]

omit [FloatOps F] in
/-- The two scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The task's share of the table as what stays with it and one read token per indexed copy. -/
theorem tblToks (q : PosShare TreeShare) (f : Buf (Elt F) (tblLoc d)) :
    (tblLoc d ↦{q} f : sProp 𝕄) ⊣⊢ iprop((tblLoc d ↦{Transfers.shareDrop q 2} f) ∗ (tblLoc d ↦{Transfers.shareTokN q 0} f) ∗ (tblLoc d ↦{Transfers.shareTokN q 1} f)) := by
  have h : (tblLoc d ↦{q} f : sProp 𝕄) ⊣⊢ iprop((tblLoc d ↦{Transfers.shareDrop q 2} f) ∗ bigSep (Finset.range 2) fun i => tblLoc d ↦{Transfers.shareTokN q i} f) :=
    Transfers.pointsTo_toks_range (ℓ := tblLoc d) (S := Finset.univ) (f := f) q 2
  rw [show Finset.range 2 = {0, 1} by decide, SparseCore.bigSep_insert' (by decide), bigSep_singleton] at h
  exact h

/-- The task on vector subcore (L 0, L 1) of device d, from what the launch deals it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (labRowPts m d (jL L) ∗ tblShPts m d (jL L) ∗ outRowPts d (jL L) (m (outLoc d)))
        ∗ scopedBufs (VT d L) ∗ scopedSems0 (VT d L) ∗ owes (VT d L) O W)
      ⊢ wp frame (wpE (defs₀ (F := F)) 𝒱₀ (VT d L) none) Set.univ
          (cc0_gather_kernel L labV (Memref.isWhole_whole _) tblV (Memref.isWhole_whole _) outV (Memref.isWhole_whole _)
            idxV (Memref.isWhole_whole _) rowsV (Memref.isWhole_whole _) cc0_scratch2 cc0_scratch3 cc0_scoped0 cc0_scoped1)
          fun _ => iprop((labRowPts m d (jL L) ∗ tblShPts m d (jL L) ∗ ∃ f, ⌜RowsOK m d (jL L) f⌝ ∗ outRowPts d (jL L) f)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%g0, HG⟩, ⟨%t0, HT⟩, Hbufs⟩, ⟨HcA, HcB, HcC, HcD, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (pts_labRowK (F := F) d L _).symm) $$ Hi
  ihave Ho' := (Entails.of_eq (pts_outRowK (F := F) d L _).symm) $$ Ho
  ihave HG' := (Entails.of_eq (pts_idxV (F := F) d L _).symm) $$ HG
  ihave HT' := (Entails.of_eq (pts_rowsV (F := F) d L _).symm) $$ HT
  ihave Hx' := (tblToks d (xq (jL L)) (m (tblLoc d))).1 $$ Hx
  icases Hx' with ⟨Hxr, Hx0, Hx1⟩
  iapply (wp_wand_r Idealize.ShloMosaic.frame (wpE (defs₀ (F := F)) 𝒱₀ (VT d L) none) Set.univ)
  isplitl [Hi' Hx0 Hx1 Ho' HG' HT' HcA HcB HcC HcD HO]
  · iapply (tile_run m d L hpre O W g0 t0)
    isplitr; · iexact Hmw
    isplitl [Hi']; · iexact Hi'
    isplitl [Hx0]; · iexact Hx0
    isplitl [Hx1]; · iexact Hx1
    isplitl [Ho']; · iexact Ho'
    isplitl [HG']; · iexact HG'
    isplitl [HT']; · iexact HT'
    isplitl [HcA HcB HcC HcD]
    · isplitl [HcA]; · iexact HcA
      isplitl [HcB]; · iexact HcB
      isplitl [HcC]; · iexact HcC
      iexact HcD
    iexact HO
  iintro %_ ⟨Hi', Hx0, Hx1, ⟨%f, %hf, Ho'⟩, ⟨%g, HG'⟩, ⟨%t, HT'⟩, ⟨HcA, HcB, HcC, HcD⟩, ⟨%W', HO⟩⟩
  ihave Hx := (tblToks d (xq (jL L)) (m (tblLoc d))).2 $$ [Hxr Hx0 Hx1]
  · isplitl [Hxr]; · iexact Hxr
    isplitl [Hx0]; · iexact Hx0
    iexact Hx1
  isplitl [Hi' Hx Ho']
  · isplitl [Hi']; · iapply (Entails.of_eq (pts_labRowK (F := F) d L _)); iexact Hi'
    isplitl [Hx]; · iexact Hx
    iexists f; isplitr
    · ipureintro; exact hf
    · iapply (Entails.of_eq (pts_outRowK (F := F) d L _)); iexact Ho'
  isplitl [HG' HT' Hbufs]
  · isplitl [HG']; · iexists _; iapply (Entails.of_eq (pts_idxV (F := F) d L _)); iexact HG'
    isplitl [HT']; · iexists _; iapply (Entails.of_eq (pts_rowsV (F := F) d L _)); iexact HT'
    iexact Hbufs
  isplitl [HcA HcB HcC HcD Hsems]
  · isplitl [HcA]; · iexact HcA
    isplitl [HcB]; · iexact HcB
    isplitl [HcC]; · iexact HcC
    isplitl [HcD]; · iexact HcD
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          labV (Memref.isWhole_whole _) tblV (Memref.isWhole_whole _) outV (Memref.isWhole_whole _)
          idxV (Memref.isWhole_whole _) rowsV (Memref.isWhole_whole _) cc0_scratch2 cc0_scratch3 cc0_scoped0 cc0_scoped1) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

end Cert.Proof.TileIdeal

end
-- ==== Proof.LaunchIdeal.lean ====
/-
  The launch of the embedding lookup: how the call's arrays split among the sixteen tasks and come back, the
  TensorCore's program around the call, and the run of the whole program.

  The labels and the result split by rows, 256 to a task; the table is read by every task, so each gets a read share of
  all of it.  Each task hands its rows of the result back holding the lookup there; rows of different tasks are
  disjoint and together are the whole array, so the result comes back holding the lookup everywhere.  The TensorCore
  does nothing but make the call: the two unused arguments never leave it.
-/
import proofs.«208054_g70884140253208_cont_9to1_m_1136_23_alg».proof.Proof.TileIdeal

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The rows split and join -/

theorem labRowSet_eq (i : Fin 16) : labRowSet i = (lrow i).set := by
  show ((View.whole (main_arg2_scv : Ref sig .scVector)).slice (lrow i)).set = _
  rw [View.set_slice]; exact Finset.map_refl
theorem outRowSet_eq (i : Fin 16) : outRowSet i = (orow i).set := by
  show ((View.whole (main_v0_scv : Ref sig .scVector)).slice (orow i)).set = _
  rw [View.set_slice]; exact Finset.map_refl
theorem lrows_disjoint : ∀ i ∈ (Finset.univ : Finset (Fin 16)), ∀ j ∈ (Finset.univ : Finset (Fin 16)), i ≠ j → Disjoint (labRowSet i) (labRowSet j) :=
  fun i _ j _ h => by rw [labRowSet_eq, labRowSet_eq]; exact Rect.part_disjoint ldiv h
theorem orows_disjoint : ∀ i ∈ (Finset.univ : Finset (Fin 16)), ∀ j ∈ (Finset.univ : Finset (Fin 16)), i ≠ j → Disjoint (outRowSet i) (outRowSet j) :=
  fun i _ j _ h => by rw [outRowSet_eq, outRowSet_eq]; exact Rect.part_disjoint odiv h
theorem lrows_cover : (Finset.univ : Finset (Fin 16)).biUnion labRowSet = Finset.univ :=
  (Finset.biUnion_congr rfl fun i _ => labRowSet_eq i).trans (Rect.biUnion_part ldiv)
theorem orows_cover : (Finset.univ : Finset (Fin 16)).biUnion outRowSet = Finset.univ :=
  (Finset.biUnion_congr rfl fun i _ => outRowSet_eq i).trans (Rect.biUnion_part odiv)

theorem labPts_rows (d : Dev nD) (f : Buf (Elt F) (labLoc d)) :
    (labLoc d ↦{fullShare} f : sProp 𝕄) = bigSep Finset.univ fun i : Fin 16 => labLoc d ↦[labRowSet i]{fullShare} f := by
  rw [← pointsTo_biUnion Finset.univ (ℓ := labLoc d) labRowSet lrows_disjoint, lrows_cover]; try rfl
theorem outPts_rows (d : Dev nD) (f : Buf (Elt F) (outLoc d)) :
    (outLoc d ↦{fullShare} f : sProp 𝕄) = bigSep Finset.univ fun i : Fin 16 => outLoc d ↦[outRowSet i]{fullShare} f := by
  rw [← pointsTo_biUnion Finset.univ (ℓ := outLoc d) outRowSet orows_disjoint, orows_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- One task's rows of the result, holding a function that is the lookup there, hold the lookup. -/
theorem outRow_lookup (d : Dev nD) (i : Fin 16) :
    (iprop(∃ f, ⌜RowsOK m d i f⌝ ∗ outRowPts d i f) : sProp 𝕄)
      ⊢ outRowPts d i (Cert.Spec.lookup (m (tblLoc d)) (m (labLoc d))) := by
  iintro ⟨%f, %hf, H⟩
  iapply (Entails.of_eq (pointsTo_congr (ℓ := outLoc d) (q := fullShare) hf)); iexact H

/-- The tasks' rows of the result, each holding the lookup on its rows, are the result holding the lookup. -/
theorem outRows_join (d : Dev nD) :
    (bigSep Finset.univ fun i : Fin 16 => iprop(∃ f, ⌜RowsOK m d i f⌝ ∗ outRowPts d i f))
      ⊢ (outPts d (Cert.Spec.lookup (m (tblLoc d)) (m (labLoc d))) : sProp 𝕄) := by
  unfold outPts
  rw [outPts_rows]
  exact bigSep_mono fun i _ => outRow_lookup m d i

theorem vecSplit : (K (F := F)).VecSplit' (P m) 0 := by
  intro d c
  show iprop(labPts m d ∗ tblPts m d ∗ outPts d (m (outLoc d))) ⊢ |={Set.univ}=> iprop(
      (bigSep Finset.univ fun i : Fin ((K (F := F)).nSub 0) =>
        iprop(labRowPts m d (Fin.cast nSub_zero i) ∗ tblShPts m d (Fin.cast nSub_zero i) ∗ outRowPts d (Fin.cast nSub_zero i) (m (outLoc d))))
      ∗ ((bigSep Finset.univ fun i : Fin ((K (F := F)).nSub 0) =>
          iprop(labRowPts m d (Fin.cast nSub_zero i) ∗ tblShPts m d (Fin.cast nSub_zero i)
            ∗ ∃ f, ⌜RowsOK m d (Fin.cast nSub_zero i) f⌝ ∗ outRowPts d (Fin.cast nSub_zero i) f))
          -∗ iprop(labPts m d ∗ tblPts m d ∗ outPts d (Cert.Spec.lookup (m (tblLoc d)) (m (labLoc d))))))
  rw [bigSep_tasks (F := F) (fun i => iprop(labRowPts m d i ∗ tblShPts m d i ∗ outRowPts d i (m (outLoc d)))),
    bigSep_tasks (F := F) (fun i => iprop(labRowPts m d i ∗ tblShPts m d i ∗ ∃ f, ⌜RowsOK m d i f⌝ ∗ outRowPts d i f)),
    bigSep_sep', bigSep_sep', bigSep_sep', bigSep_sep']
  iintro ⟨Hl, Ht, Ho⟩
  ihave Hl' := (Entails.of_eq (labPts_rows (F := F) d _)) $$ Hl
  ihave Ho' := (Entails.of_eq (outPts_rows (F := F) d _)) $$ Ho
  ihave Ht' := (Transfers.pointsTo_toks_split (ℓ := tblLoc d) (S := Finset.univ) (f := m (tblLoc d)) fullShare 16) $$ Ht
  icases Ht' with ⟨Htr, Htt⟩
  imodintro
  isplitl [Hl' Htt Ho']
  · isplitl [Hl']; · iexact Hl'
    isplitl [Htt]; · iexact Htt
    iexact Ho'
  iintro ⟨Hl, Ht, Ho⟩
  isplitl [Hl]; · iapply (Entails.of_eq (labPts_rows (F := F) d _).symm); iexact Hl
  isplitl [Htr Ht]
  · iapply (Transfers.pointsTo_toks_join (ℓ := tblLoc d) (S := Finset.univ) (f := m (tblLoc d)) fullShare 16)
    isplitl [Htr]; · iexact Htr
    iexact Ht
  iapply (outRows_join m d); iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0Loc (d : Dev nD) : Loc nD τ sig := (SparseCore.T d).loc main_arg0
abbrev a1Loc (d : Dev nD) : Loc nD τ sig := (SparseCore.T d).loc main_arg1

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (labLoc d ↦{fullShare} W main_arg2) ∗ (tblLoc d ↦{fullShare} W main_arg3) ∗ outLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c) = iprop(labPts m d ∗ tblPts m d ∗ outPts d (m (outLoc d))) :=
  bigSep_univ_of_subsingleton (0 : Fin 1)
theorem dn0_eq (d : Dev nD) : (bigSep Finset.univ fun c : Fin ((K (F := F)).nCore 0) => (P m).dn 0 d c)
    = iprop(labPts m d ∗ tblPts m d ∗ outPts d (Cert.Spec.lookup (m (tblLoc d)) (m (labLoc d)))) :=
  bigSep_univ_of_subsingleton (0 : Fin 1)

/-- What @main leaves the claim: the four arguments at their launch contents, the result at the lookup. -/
abbrev FIN (d : Dev nD) : sProp 𝕄 :=
  iprop((a0Loc d ↦{fullShare} m (a0Loc d)) ∗ (a1Loc d ↦{fullShare} m (a1Loc d)) ∗ labPts m d ∗ tblPts m d
    ∗ outPts d (Cert.Spec.lookup (m (tblLoc d)) (m (labLoc d))))

/-- @main on device d's TensorCore: the one call, from the labels, the table and the result's buffer. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨H0, H1, Hl, Ht, Ho⟩, -, -⟩, -⟩
  iapply ((K (F := F)).wp_run (D (F := F)) 𝒱 (EH := EH) (P := P m) κ d 0) $$ [Hst Hl Ht Ho H0 H1]
  isplitr; · iexact Hctx
  isplitl [Hst]; · iexact Hst
  isplitl [Hl Ht Ho]
  · rw [st0_eq]
    isplitl [Hl]; · iexact Hl
    isplitl [Ht]; · iexact Ht
    iexact Ho
  iintro ⟨Hst, Hdn⟩
  ihave Hdn' := (Entails.of_eq (dn0_eq m d)) $$ Hdn
  icases Hdn' with ⟨Hl, Ht, Ho⟩
  imodintro
  isplitl [Hst]; · iexact Hst
  isplitl [H0]; · iexact H0
  isplitl [H1]; · iexact H1
  isplitl [Hl]; · iexact Hl
  isplitl [Ht]; · iexact Ht
  iexact Ho

def fq (d : Dev nD) (s' : Phys nD τ sig (Elt F)) : Prop :=
  s'.mem.mem (outLoc d) = Cert.Spec.lookup (m (tblLoc d)) (m (labLoc d)) ∧ s'.mem.mem (a0Loc d) = m (a0Loc d) ∧ s'.mem.mem (a1Loc d) = m (a1Loc d)
    ∧ s'.mem.mem (labLoc d) = m (labLoc d) ∧ s'.mem.mem (tblLoc d) = m (tblLoc d)

theorem hfin (d : Dev nD) (s' : Phys nD τ sig (Elt F)) : iprop(FIN m d ∗ SI s') ⊢ (⌜fq m d s'⌝ : sProp 𝕄) := by
  iintro ⟨⟨H0, H1, Hl, Ht, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := labLoc d) (I := Finset.univ) (q := fullShare) (f := m (labLoc d)))) $$ [HSI Hl]
  · isplitl [HSI] <;> iassumption
  icases H with ⟨%h2, HSI, -⟩
  ihave H := (persistent_entails_right (SI_pointsTo_agree (st := s') (ℓ := tblLoc d) (I := Finset.univ) (q := fullShare) (f := m (tblLoc d)))) $$ [HSI Ht]
  · isplitl [HSI] <;> iassumption
  icases H with ⟨%h3, HSI, -⟩
  ihave H := (SI_pointsTo_agree (st := s') (ℓ := outLoc d) (I := Finset.univ) (q := fullShare) (f := Cert.Spec.lookup (m (tblLoc d)) (m (labLoc d)))) $$ [HSI Ho]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

/-! ## The program's run -/

/-- The result is the lookup of the launch's table at the launch's labels, and the four arguments end unchanged. -/
def QC : PUnit × MemSt nD τ sig (Elt F) → Prop := fun r => ∀ c : Dev nD,
  r.2.mem (outLoc c) = Cert.Spec.lookup (m (tblLoc c)) (m (labLoc c)) ∧ r.2.mem (a0Loc c) = m (a0Loc c) ∧ r.2.mem (a1Loc c) = m (a1Loc c)
    ∧ r.2.mem (labLoc c) = m (labLoc c) ∧ r.2.mem (tblLoc c) = m (tblLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.TileIdeal

end
-- ==== Proof.lean ====
/-
  The embedding lookup: a kernel on the vector subcores of one SparseCore against the host's gather.

  Both programs take a table of 100000 rows of 128 numbers and 4096 labels, each label a row number of the table
  (the precondition), and return the 4096 rows the labels name.  (Two further arguments are accepted and unused.)

  The host program normalises a negative label by adding the row count, gathers the rows through an index clamped into
  the table, and masks rows whose label fell outside the table; with every label already a row number the
  normalisation keeps it, the clamp does nothing and the mask is all ones, so entry (i, j) of the result is entry
  (label i, j) of the table.

  The kernel splits the 4096 labels among sixteen tiles, 256 each.  A tile copies its labels into its own memory,
  starts two indexed copies of 128 table rows each into the two halves of a row buffer, waits for both and copies the
  buffer to its 256 rows of the result.  The two indexed copies run at once but write disjoint halves and read an index
  list nobody writes meanwhile, so in whatever order the engine serves their rows the buffer ends with row r holding the
  table's row named by the tile's label r; the tiles write disjoint rows of the result that together are all of it.
  Hence entry (i, j) of the kernel's result is again entry (label i, j) of the table: the two results are one function
  of the arguments (Spec.lookup), and nothing is computed on the entries, so this holds reading the numbers as
  extended reals as it does reading them as words.

  Each frame is the corresponding run with the value forgotten.  The kernel's idealization rewrote nothing, so what it
  preserves is trivially true.
-/
import proofs.«208054_g70884140253208_cont_9to1_m_1136_23_alg».proof.Defs
import proofs.«208054_g70884140253208_cont_9to1_m_1136_23_alg».proof.Proof.Gen.Kernel
import proofs.«208054_g70884140253208_cont_9to1_m_1136_23_alg».proof.Proof.Gen.Kernel.Skeleton
import proofs.«208054_g70884140253208_cont_9to1_m_1136_23_alg».proof.Proof.Gen.KernelIdeal
import proofs.«208054_g70884140253208_cont_9to1_m_1136_23_alg».proof.Proof.Gen.KernelIdeal.Skeleton
import proofs.«208054_g70884140253208_cont_9to1_m_1136_23_alg».proof.Proof.Gen.ReferenceIdeal
import proofs.«208054_g70884140253208_cont_9to1_m_1136_23_alg».proof.Proof.Gen.Pre_input_domain
import Idealize.ShloMosaic.Adequacy
import Idealize.ShloMosaic.Init
import proofs.«208054_g70884140253208_cont_9to1_m_1136_23_alg».proof.Proof.LabelRange
import proofs.«208054_g70884140253208_cont_9to1_m_1136_23_alg».proof.Proof.RefRun
import proofs.«208054_g70884140253208_cont_9to1_m_1136_23_alg».proof.Proof.LaunchBits
import proofs.«208054_g70884140253208_cont_9to1_m_1136_23_alg».proof.Proof.LaunchIdeal

noncomputable section

namespace Cert.Proof

open Idealize.ShloMosaic Idealize.SL.Sem

/-- Under the precondition every label of the word-level kernel's memory is a row number of the table. -/
theorem labels_ok_bits (m : (ℓ : Loc Cert.Kernel.nD Cert.Kernel.τ Cert.Kernel.sig) → Buf (Elt Bits) ℓ) (h : Cert.Pre_Kernel m) :
    Cert.Proof.TileBits.PreOK (F := Bits) m :=
  fun d j => Cert.LabelRange.labels_in_range (F := Bits) _ _ _ _ (h d) j

/-- The same of the idealized kernel's memory. -/
theorem labels_ok_ideal (m : (ℓ : Loc Cert.KernelIdeal.nD Cert.KernelIdeal.τ Cert.KernelIdeal.sig) → Buf (Elt Ideal) ℓ)
    (h : Cert.Pre_KernelIdeal m) : Cert.Proof.TileIdeal.PreOK (F := Ideal) m :=
  fun d j => Cert.LabelRange.labels_in_range (F := Ideal) _ _ _ _ (h d) j

theorem frame_kernel : Cert.frame_Kernel := fun m g hpre =>
  (θ_run Cert.Kernel.defs _ _).mono (fun _ h c => (h c).2)
    (Cert.Proof.TileBits.run_main (F := Bits) m g (labels_ok_bits m hpre))

theorem frame_kernelIdeal : Cert.frame_KernelIdeal := fun m g hpre =>
  (θ_run Cert.KernelIdeal.defs _ _).mono (fun _ h c => (h c).2)
    (Cert.Proof.TileIdeal.run_main (F := Ideal) m g (labels_ok_ideal m hpre))

theorem frame_reference : Cert.frame_ReferenceIdeal := fun m g hpre =>
  (θ_run Cert.ReferenceIdeal.defs _ _).mono (fun _ h c => (h c).2) (Cert.ReferenceIdeal.RefRun.run m g hpre)

/-- Both runs end with the result at the lookup of the table at the labels; the memories agree on both. -/
theorem algebraic : Cert.algebraic_KernelIdeal_ReferenceIdeal := by
  intro m g m' g' hpre hagree
  refine ⟨fun c => Cert.Spec.lookup (m (Cert.Proof.TileIdeal.tblLoc c)) (m (Cert.Proof.TileIdeal.labLoc c)), ?_, ?_⟩
  · exact (θ_run Cert.KernelIdeal.defs _ _).mono (fun _ h c => h c)
      (Cert.Proof.TileIdeal.run_main (F := Ideal) m g (labels_ok_ideal m hpre))
  · have hpre' : Cert.Pre_ReferenceIdeal m' := fun c => by
      show Cert.Pre_input_domain.fn (F := Ideal) _ _ _ _ = _
      rw [(hagree c).1, (hagree c).2.1, (hagree c).2.2.1, (hagree c).2.2.2]
      exact hpre c
    refine (θ_run Cert.ReferenceIdeal.defs _ _).mono (fun _ h c => ⟨(h c).1.trans ?_, (h c).2⟩)
      (Cert.ReferenceIdeal.RefRun.run m' g' hpre')
    rw [(hagree c).2.2.1, (hagree c).2.2.2]

theorem claim : Cert.Claim := ⟨Cert.Kernel.Gen.facts, Cert.KernelIdeal.Gen.facts, Cert.ReferenceIdeal.Gen.facts, Cert.Pre_input_domain.Gen.facts,
  frame_kernel, frame_kernelIdeal, frame_reference, trivial, algebraic⟩

end Cert.Proof

end
